-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S65536x64 : Shape := ⟨2, ![65536, 64]⟩
abbrev S1024x784 : Shape := ⟨2, ![1024, 784]⟩
abbrev S1024 : Shape := ⟨1, ![1024]⟩
abbrev S64x1024 : Shape := ⟨2, ![64, 1024]⟩
abbrev S64 : Shape := ⟨1, ![64]⟩
abbrev S1024x64 : Shape := ⟨2, ![1024, 64]⟩
abbrev S784x1024 : Shape := ⟨2, ![784, 1024]⟩
abbrev S784 : Shape := ⟨1, ![784]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S1024x64 : S_.BroadcastsInDim S1024x64 (![] : Fin 0 → Fin S1024x64.rank)
  reducesTo_S1024x64_S_d0_1 : S1024x64.ReducesTo [0, 1] S_
  bcast_S_S784x1024 : S_.BroadcastsInDim S784x1024 (![] : Fin 0 → Fin S784x1024.rank)
  reducesTo_S784x1024_S_d0_1 : S784x1024.ReducesTo [0, 1] S_
  bcast_S_S784 : S_.BroadcastsInDim S784 (![] : Fin 0 → Fin S784.rank)
  reducesTo_S784_S_d0 : S784.ReducesTo [0] S_

variable [Facts]

def fn_part3 {F : FTy → Type} [FloatOps F] (main_arg11 : FVec F S784 .f32) (main_v48 : IVec S_ 1) (main_v49 : FVec F S784x1024 .f32) (main_v50 : FVec F S784x1024 .f32) : IVec S_ 1 :=
  let main_v51 : IVec S784x1024 1 := cmpf .olt main_v49 main_v50
  let main_c_19 : IVec S_ 1 := constantI S_ 1 1#1
  let main_v52 : IVec S_ 1 := (fun x v => Host.reduce IntOp.andi x v reducesTo_S784x1024_S_d0_1 h_S_) main_v51 main_c_19
  let main_v53 : IVec S_ 1 := andi main_v48 main_v52
  let main_v54 : FVec F S784 .f32 := Host.absf main_arg11
  let main_cst_20 : FVec F S_ .f32 := constant S_ .f32 0x7F800000#32
  let main_v55 : FVec F S784 .f32 := broadcastInDim S784 ![] bcast_S_S784 main_cst_20
  let main_v56 : IVec S784 1 := cmpf .olt main_v54 main_v55
  let main_c_21 : IVec S_ 1 := constantI S_ 1 1#1
  let main_v57 : IVec S_ 1 := (fun x v => Host.reduce IntOp.andi x v reducesTo_S784_S_d0 h_S_) main_v56 main_c_21
  let main_v58 : IVec S_ 1 := andi main_v53 main_v57
  main_v58

def fn_part2 {F : FTy → Type} [FloatOps F] (main_arg7 : FVec F S64 .f32) (main_arg8 : FVec F S1024x64 .f32) (main_arg9 : FVec F S1024 .f32) (main_arg10 : FVec F S784x1024 .f32) (main_arg11 : FVec F S784 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1024x64 .f32 := Host.absf main_arg8
  let main_cst_14 : FVec F S_ .f32 := constant S_ .f32 0x7F800000#32
  let main_v40 : FVec F S1024x64 .f32 := broadcastInDim S1024x64 ![] bcast_S_S1024x64 main_cst_14
  let main_v41 : IVec S1024x64 1 := cmpf .olt main_v39 main_v40
  let main_c_15 : IVec S_ 1 := constantI S_ 1 1#1
  let main_v42 : IVec S_ 1 := (fun x v => Host.reduce IntOp.andi x v reducesTo_S1024x64_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S784x1024 .f32 := Host.absf main_arg10
  let main_cst_18 : FVec F S_ .f32 := constant S_ .f32 0x7F800000#32
  let main_v50 : FVec F S784x1024 .f32 := broadcastInDim S784x1024 ![] bcast_S_S784x1024 main_cst_18
  fn_part3 (F := F) main_arg11 main_v48 main_v49 main_v50

def fn_part1 {F : FTy → Type} [FloatOps F] (main_arg4 : FVec F S64x1024 .f32) (main_arg5 : FVec F S64 .f32) (main_arg6 : FVec F S64x1024 .f32) (main_arg7 : FVec F S64 .f32) (main_arg8 : FVec F S1024x64 .f32) (main_arg9 : FVec F S1024 .f32) (main_arg10 : FVec F S784x1024 .f32) (main_arg11 : FVec F S784 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S64x1024 .f32 := Host.absf main_arg4
  let main_cst_6 : FVec F S_ .f32 := constant S_ .f32 0x7F800000#32
  let main_v20 : FVec F S64x1024 .f32 := broadcastInDim S64x1024 ![] bcast_S_S64x1024 main_cst_6
  let main_v21 : IVec S64x1024 1 := cmpf .olt main_v19 main_v20
  let main_c_7 : IVec S_ 1 := constantI S_ 1 1#1
  let main_v22 : IVec S_ 1 := (fun x v => Host.reduce IntOp.andi x v reducesTo_S64x1024_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1024 .f32 := Host.absf main_arg6
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x784 .f32) (main_arg1 : FVec F S65536x64 .f32) (main_arg2 : FVec F S1024x784 .f32) (main_arg3 : FVec F S1024 .f32) (main_arg4 : FVec F S64x1024 .f32) (main_arg5 : FVec F S64 .f32) (main_arg6 : FVec F S64x1024 .f32) (main_arg7 : FVec F S64 .f32) (main_arg8 : FVec F S1024x64 .f32) (main_arg9 : FVec F S1024 .f32) (main_arg10 : FVec F S784x1024 .f32) (main_arg11 : FVec F S784 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S1024x784 .f32 := Host.absf main_arg2
  let main_cst_2 : FVec F S_ .f32 := constant S_ .f32 0x7F800000#32
  let main_v10 : FVec F S1024x784 .f32 := broadcastInDim S1024x784 ![] bcast_S_S1024x784 main_cst_2
  let main_v11 : IVec S1024x784 1 := cmpf .olt main_v9 main_v10
  let main_c_3 : IVec S_ 1 := constantI S_ 1 1#1
  let main_v12 : IVec S_ 1 := (fun x v => Host.reduce IntOp.andi x v reducesTo_S1024x784_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S65536x784 : Shape := ⟨2, ![65536, 784]⟩
abbrev S65536x64 : Shape := ⟨2, ![65536, 64]⟩
abbrev S1024x784 : Shape := ⟨2, ![1024, 784]⟩
abbrev S1024 : Shape := ⟨1, ![1024]⟩
abbrev S64x1024 : Shape := ⟨2, ![64, 1024]⟩
abbrev S64 : Shape := ⟨1, ![64]⟩
abbrev S1024x64 : Shape := ⟨2, ![1024, 64]⟩
abbrev S784x1024 : Shape := ⟨2, ![784, 1024]⟩
abbrev S784 : Shape := ⟨1, ![784]⟩
abbrev S1x1024 : Shape := ⟨2, ![1, 1024]⟩
abbrev S1x64 : Shape := ⟨2, ![1, 64]⟩
abbrev S1x784 : Shape := ⟨2, ![1, 784]⟩
abbrev S1x1 : Shape := ⟨2, ![1, 1]⟩
abbrev S1024x1024 : Shape := ⟨2, ![1024, 1024]⟩
abbrev S1024x1 : Shape := ⟨2, ![1024, 1]⟩
abbrev S1 : Shape := ⟨1, ![1]⟩
abbrev S_ : Shape := ⟨0, ![]⟩

abbrev nBuf : Space → Nat
  | .hbm => 29
  | .vmem => 16
  | .smem => 0
  | _ => 0

abbrev bufTy : (tb : Table) → Fin (tcTables nBuf tb) → BufTy
  | .hbm, ⟨0, _⟩ => ⟨S65536x784, .f32⟩
  | .hbm, ⟨1, _⟩ => ⟨S65536x64, .f32⟩
  | .hbm, ⟨2, _⟩ => ⟨S1024x784, .f32⟩
  | .hbm, ⟨3, _⟩ => ⟨S1024, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S1024x64, .f32⟩
  | .hbm, ⟨9, _⟩ => ⟨S1024, .f32⟩
  | .hbm, ⟨10, _⟩ => ⟨S784x1024, .f32⟩
  | .hbm, ⟨11, _⟩ => ⟨S784, .f32⟩
  | .hbm, ⟨12, _⟩ => ⟨S784x1024, .f32⟩
  | .hbm, ⟨13, _⟩ => ⟨S784x1024, .bf16⟩
  | .hbm, ⟨14, _⟩ => ⟨S1024x64, .f32⟩
  | .hbm, ⟨15, _⟩ => ⟨S1024x64, .bf16⟩
  | .hbm, ⟨16, _⟩ => ⟨S1024x64, .f32⟩
  | .hbm, ⟨17, _⟩ => ⟨S1024x64, .bf16⟩
  | .hbm, ⟨18, _⟩ => ⟨S64x1024, .f32⟩
  | .hbm, ⟨19, _⟩ => ⟨S64x1024, .bf16⟩
  | .hbm, ⟨20, _⟩ => ⟨S1024x784, .f32⟩
  | .hbm, ⟨21, _⟩ => ⟨S1024x784, .bf16⟩
  | .hbm, ⟨22, _⟩ => ⟨S1x1024, .f32⟩
  | .hbm, ⟨23, _⟩ => ⟨S1x64, .f32⟩
  | .hbm, ⟨24, _⟩ => ⟨S1x64, .f32⟩
  | .hbm, ⟨25, _⟩ => ⟨S1x1024, .f32⟩
  | .hbm, ⟨26, _⟩ => ⟨S1x784, .f32⟩
  | .hbm, ⟨27, _⟩ => ⟨S1x1, .f32⟩
  | .hbm, ⟨28, _⟩ => ⟨S_, .f32⟩
  | .local _ .vmem, ⟨0, _⟩ => ⟨S1024x784, .f32⟩
  | .local _ .vmem, ⟨1, _⟩ => ⟨S1024x784, .f32⟩
  | .local _ .vmem, ⟨2, _⟩ => ⟨S1024x64, .f32⟩
  | .local _ .vmem, ⟨3, _⟩ => ⟨S1024x64, .f32⟩
  | .local _ .vmem, ⟨4, _⟩ => ⟨S784x1024, .bf16⟩
  | .local _ .vmem, ⟨5, _⟩ => ⟨S1x1024, .f32⟩
  | .local _ .vmem, ⟨6, _⟩ => ⟨S1024x64, .bf16⟩
  | .local _ .vmem, ⟨7, _⟩ => ⟨S1x64, .f32⟩
  | .local _ .vmem, ⟨8, _⟩ => ⟨S1024x64, .bf16⟩
  | .local _ .vmem, ⟨9, _⟩ => ⟨S1x64, .f32⟩
  | .local _ .vmem, ⟨10, _⟩ => ⟨S64x1024, .bf16⟩
  | .local _ .vmem, ⟨11, _⟩ => ⟨S1x1024, .f32⟩
  | .local _ .vmem, ⟨12, _⟩ => ⟨S1024x784, .bf16⟩
  | .local _ .vmem, ⟨13, _⟩ => ⟨S1x784, .f32⟩
  | .local _ .vmem, ⟨14, _⟩ => ⟨S1x1, .f32⟩
  | .local _ .vmem, ⟨15, _⟩ => ⟨S1x1, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S784x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x784 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x784 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  transposes_S1024x784_S784x1024_1_0 : S1024x784.Transposes [1, 0] S784x1024
  bitsLt_bf16_f32 : FTy.bits .bf16 < FTy.bits .f32
  transposes_S64x1024_S1024x64_1_0 : S64x1024.Transposes [1, 0] S1024x64
  transposes_S1024x64_S64x1024_1_0 : S1024x64.Transposes [1, 0] S64x1024
  transposes_S784x1024_S1024x784_1_0 : S784x1024.Transposes [1, 0] S1024x784
  shapeCasts_S1024_S1x1024 : S1024.ShapeCasts S1x1024
  shapeCasts_S64_S1x64 : S64.ShapeCasts S1x64
  shapeCasts_S784_S1x784 : S784.ShapeCasts S1x784
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x784_S1024x784_0_0 : ∀ a, (![0, 0] : Fin 2 → Nat) a + S1024x784.size a ≤ S1024x784.size a
  h_S1024x784 : 0 < S1024x784.numel
  inb_S1024x64_S1024x64_0_0 : ∀ a, (![0, 0] : Fin 2 → Nat) a + S1024x64.size a ≤ S1024x64.size a
  h_S1024x64 : 0 < S1024x64.numel
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S1024x784_S1024x784 : S1024x784.ShapeCasts S1024x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S1024x784 : S1x784.Broadcasts S1024x784
  reduces_S1024x64_S1024 : S1024x64.Reduces [1] S1024
  shapeCasts_S1024_S1024x1 : S1024.ShapeCasts S1024x1
  reduces_S1024x784_S1024 : S1024x784.Reduces [1] S1024
  reduces_S1024x1_S1 : S1024x1.Reduces [0] S1
  shapeCasts_S1_S1x1 : S1.ShapeCasts S1x1
  shapeCasts_S1x1_S_ : S1x1.ShapeCasts S_
  dot_S1024x784_S784x1024_S1024x1024_1_0_0_1_n_n_wf : DotDims.WF S1024x784 S784x1024 S1024x1024 [1] [0] [0] [1] [] []
  dot_S1024x1024_S1024x64_S1024x64_1_0_0_1_n_n_wf : DotDims.WF S1024x1024 S1024x64 S1024x64 [1] [0] [0] [1] [] []
  dot_S1024x64_S64x1024_S1024x1024_1_0_0_1_n_n_wf : DotDims.WF S1024x64 S64x1024 S1024x1024 [1] [0] [0] [1] [] []
  dot_S1024x1024_S1024x784_S1024x784_1_0_0_1_n_n_wf : DotDims.WF S1024x1024 S1024x784 S1024x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S65536x64.size a
  hwx0_1 : ∀ i : grid0.Coords, EltTy.bits .f32 = 32 ∨ (Rect.block (s := S65536x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x1024.size a ≤ S784x1024.size a
  hwx0_2 : ∀ i : grid0.Coords, EltTy.bits .bf16 = 32 ∨ (Rect.block (s := S784x1024) S784x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S1024x64.size a
  hwx0_6 : ∀ i : grid0.Coords, EltTy.bits .bf16 = 32 ∨ (Rect.block (s := S1024x64) S1024x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S64x1024.size a
  hwx0_8 : ∀ i : grid0.Coords, EltTy.bits .bf16 = 32 ∨ (Rect.block (s := S64x1024) S64x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x784.size a ≤ S1024x784.size a
  hwx0_10 : ∀ i : grid0.Coords, EltTy.bits .bf16 = 32 ∨ (Rect.block (s := S1024x784) S1024x784.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x784.size a ≤ S1x784.size a
  hwx0_11 : ∀ i : grid0.Coords, EltTy.bits .f32 = 32 ∨ (Rect.block (s := S1x784) S1x784.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x784_S1024x784_1_0_0_1_n_n : DotDims S1024x1024 S1024x784 S1024x784 where
  lhsContracting := [1]
  rhsContracting := [0]
  lhsNonContracting := [0]
  rhsNonContracting := [1]
  lhsBatch := []
  rhsBatch := []
  wf := dot_S1024x1024_S1024x784_S1024x784_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S784x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1024x784.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x784.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x1.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x784 : Shape := ⟨2, ![65536, 784]⟩
abbrev S65536x64 : Shape := ⟨2, ![65536, 64]⟩
abbrev S1024x784 : Shape := ⟨2, ![1024, 784]⟩
abbrev S1024 : Shape := ⟨1, ![1024]⟩
abbrev S64x1024 : Shape := ⟨2, ![64, 1024]⟩
abbrev S64 : Shape := ⟨1, ![64]⟩
abbrev S1024x64 : Shape := ⟨2, ![1024, 64]⟩
abbrev S784x1024 : Shape := ⟨2, ![784, 1024]⟩
abbrev S784 : Shape := ⟨1, ![784]⟩
abbrev S65536x1024 : Shape := ⟨2, ![65536, 1024]⟩
abbrev S1x1024 : Shape := ⟨2, ![1, 1024]⟩
abbrev S1x64 : Shape := ⟨2, ![1, 64]⟩
abbrev S1x784 : Shape := ⟨2, ![1, 784]⟩
abbrev S_ : Shape := ⟨0, ![]⟩
abbrev S65536 : Shape := ⟨1, ![65536]⟩
abbrev S1 : Shape := ⟨1, ![1]⟩

abbrev nBuf : Space → Nat
  | .hbm => 118
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S65536x64, .f32⟩
  | .hbm, ⟨2, _⟩ => ⟨S1024x784, .f32⟩
  | .hbm, ⟨3, _⟩ => ⟨S1024, .f32⟩
  | .hbm, ⟨4, _⟩ => ⟨S64x1024, .f32⟩
  | .hbm, ⟨5, _⟩ => ⟨S64, .f32⟩
  | .hbm, ⟨6, _⟩ => ⟨S64x1024, .f32⟩
  | .hbm, ⟨7, _⟩ => ⟨S64, .f32⟩
  | .hbm, ⟨8, _⟩ => ⟨S1024x64, .f32⟩
  | .hbm, ⟨9, _⟩ => ⟨S1024, .f32⟩
  | .hbm, ⟨10, _⟩ => ⟨S784x1024, .f32⟩
  | .hbm, ⟨11, _⟩ => ⟨S784, .f32⟩
  | .hbm, ⟨12, _⟩ => ⟨S784x1024, .f32⟩
  | .hbm, ⟨13, _⟩ => ⟨S65536x1024, .f32⟩
  | .hbm, ⟨14, _⟩ => ⟨S1x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S1024x64, .f32⟩
  | .hbm, ⟨19, _⟩ => ⟨S65536x64, .f32⟩
  | .hbm, ⟨20, _⟩ => ⟨S1x64, .f32⟩
  | .hbm, ⟨21, _⟩ => ⟨S65536x64, .f32⟩
  | .hbm, ⟨22, _⟩ => ⟨S65536x64, .f32⟩
  | .hbm, ⟨23, _⟩ => ⟨S1024x64, .f32⟩
  | .hbm, ⟨24, _⟩ => ⟨S65536x64, .f32⟩
  | .hbm, ⟨25, _⟩ => ⟨S1x64, .f32⟩
  | .hbm, ⟨26, _⟩ => ⟨S65536x64, .f32⟩
  | .hbm, ⟨27, _⟩ => ⟨S65536x64, .f32⟩
  | .hbm, ⟨28, _⟩ => ⟨S65536x64, .f32⟩
  | .hbm, ⟨29, _⟩ => ⟨S65536x64, .f32⟩
  | .hbm, ⟨30, _⟩ => ⟨S65536x64, .f32⟩
  | .hbm, ⟨31, _⟩ => ⟨S65536x64, .f32⟩
  | .hbm, ⟨32, _⟩ => ⟨S64x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S1024x784, .f32⟩
  | .hbm, ⟨39, _⟩ => ⟨S65536x784, .f32⟩
  | .hbm, ⟨40, _⟩ => ⟨S1x784, .f32⟩
  | .hbm, ⟨41, _⟩ => ⟨S65536x784, .f32⟩
  | .hbm, ⟨42, _⟩ => ⟨S65536x784, .f32⟩
  | .hbm, ⟨43, _⟩ => ⟨S65536x784, .f32⟩
  | .hbm, ⟨44, _⟩ => ⟨S65536x784, .f32⟩
  | .hbm, ⟨45, _⟩ => ⟨S_, .f32⟩
  | .hbm, ⟨46, _⟩ => ⟨S65536x784, .f32⟩
  | .hbm, ⟨47, _⟩ => ⟨S65536x784, .f32⟩
  | .hbm, ⟨48, _⟩ => ⟨S_, .f32⟩
  | .hbm, ⟨49, _⟩ => ⟨S65536x784, .f32⟩
  | .hbm, ⟨50, _⟩ => ⟨S65536x784, .f32⟩
  | .hbm, ⟨51, _⟩ => ⟨S65536x64, .f32⟩
  | .hbm, ⟨52, _⟩ => ⟨S65536x64, .f32⟩
  | .hbm, ⟨53, _⟩ => ⟨S_, .f32⟩
  | .hbm, ⟨54, _⟩ => ⟨S65536, .f32⟩
  | .hbm, ⟨55, _⟩ => ⟨S65536x64, .f32⟩
  | .hbm, ⟨56, _⟩ => ⟨S_, .f32⟩
  | .hbm, ⟨57, _⟩ => ⟨S65536x64, .f32⟩
  | .hbm, ⟨58, _⟩ => ⟨S65536x64, .f32⟩
  | .hbm, ⟨59, _⟩ => ⟨S_, .f32⟩
  | .hbm, ⟨60, _⟩ => ⟨S65536x64, .f32⟩
  | .hbm, ⟨61, _⟩ => ⟨S65536x64, .f32⟩
  | .hbm, ⟨62, _⟩ => ⟨S_, .f32⟩
  | .hbm, ⟨63, _⟩ => ⟨S65536, .f32⟩
  | .hbm, ⟨64, _⟩ => ⟨S_, .f32⟩
  | .hbm, ⟨65, _⟩ => ⟨S65536, .f32⟩
  | .hbm, ⟨66, _⟩ => ⟨S65536, .f32⟩
  | .hbm, ⟨67, _⟩ => ⟨S_, .f32⟩
  | .hbm, ⟨68, _⟩ => ⟨S65536, .f32⟩
  | .hbm, ⟨69, _⟩ => ⟨S65536, .f32⟩
  | .hbm, ⟨70, _⟩ => ⟨S65536, .f32⟩
  | .hbm, ⟨71, _⟩ => ⟨S_, .f32⟩
  | .hbm, ⟨72, _⟩ => ⟨S1x64, .f32⟩
  | .hbm, ⟨73, _⟩ => ⟨S_, .f32⟩
  | .hbm, ⟨74, _⟩ => ⟨S1x64, .f32⟩
  | .hbm, ⟨75, _⟩ => ⟨S65536x64, .f32⟩
  | .hbm, ⟨76, _⟩ => ⟨S65536x64, .f32⟩
  | .hbm, ⟨77, _⟩ => ⟨S65536x64, .f32⟩
  | .hbm, ⟨78, _⟩ => ⟨S_, .f32⟩
  | .hbm, ⟨79, _⟩ => ⟨S65536, .f32⟩
  | .hbm, ⟨80, _⟩ => ⟨S1x64, .f32⟩
  | .hbm, ⟨81, _⟩ => ⟨S_, .f32⟩
  | .hbm, ⟨82, _⟩ => ⟨S1x64, .f32⟩
  | .hbm, ⟨83, _⟩ => ⟨S1x64, .f32⟩
  | .hbm, ⟨84, _⟩ => ⟨S_, .f32⟩
  | .hbm, ⟨85, _⟩ => ⟨S1x64, .f32⟩
  | .hbm, ⟨86, _⟩ => ⟨S1x64, .f32⟩
  | .hbm, ⟨87, _⟩ => ⟨S_, .f32⟩
  | .hbm, ⟨88, _⟩ => ⟨S1, .f32⟩
  | .hbm, ⟨89, _⟩ => ⟨S_, .f32⟩
  | .hbm, ⟨90, _⟩ => ⟨S65536, .f32⟩
  | .hbm, ⟨91, _⟩ => ⟨S65536, .f32⟩
  | .hbm, ⟨92, _⟩ => ⟨S_, .f32⟩
  | .hbm, ⟨93, _⟩ => ⟨S1, .f32⟩
  | .hbm, ⟨94, _⟩ => ⟨S65536, .f32⟩
  | .hbm, ⟨95, _⟩ => ⟨S65536, .f32⟩
  | .hbm, ⟨96, _⟩ => ⟨S65536, .f32⟩
  | .hbm, ⟨97, _⟩ => ⟨S65536, .f32⟩
  | .hbm, ⟨98, _⟩ => ⟨S65536x784, .f32⟩
  | .hbm, ⟨99, _⟩ => ⟨S65536x784, .f32⟩
  | .hbm, ⟨100, _⟩ => ⟨S_, .f32⟩
  | .hbm, ⟨101, _⟩ => ⟨S65536x784, .f32⟩
  | .hbm, ⟨102, _⟩ => ⟨S65536x784, .f32⟩
  | .hbm, ⟨103, _⟩ => ⟨S_, .f32⟩
  | .hbm, ⟨104, _⟩ => ⟨S65536x784, .f32⟩
  | .hbm, ⟨105, _⟩ => ⟨S65536x784, .f32⟩
  | .hbm, ⟨106, _⟩ => ⟨S65536x784, .f32⟩
  | .hbm, ⟨107, _⟩ => ⟨S65536x784, .f32⟩
  | .hbm, ⟨108, _⟩ => ⟨S65536x784, .f32⟩
  | .hbm, ⟨109, _⟩ => ⟨S_, .f32⟩
  | .hbm, ⟨110, _⟩ => ⟨S_, .f32⟩
  | .hbm, ⟨111, _⟩ => ⟨S65536, .f32⟩
  | .hbm, ⟨112, _⟩ => ⟨S65536, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_cst_0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_1 : Ref sig .tc := ⟨.hbm, 53, rfl⟩
abbrev main_v39 : Ref sig .tc := ⟨.hbm, 54, rfl⟩
abbrev main_v40 : Ref sig .tc := ⟨.hbm, 55, rfl⟩
abbrev main_cst_2 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_cst_4 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  transposes_S1024x784_S784x1024_1_0 : S1024x784.Transposes [1, 0] S784x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  transposes_S64x1024_S1024x64_1_0 : S64x1024.Transposes [1, 0] S1024x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  transposes_S1024x64_S64x1024_1_0 : S1024x64.Transposes [1, 0] S64x1024
  transposes_S784x1024_S1024x784_1_0 : S784x1024.Transposes [1, 0] S1024x784
  bcast_S784_S1x784_1 : S784.BroadcastsInDim S1x784 (![1] : Fin 1 → Fin S1x784.rank)
  bcast_S1x784_S65536x784_0_1 : S1x784.BroadcastsInDim S65536x784 (![0, 1] : Fin 2 → Fin S65536x784.rank)
  bcast_S_S65536x784 : S_.BroadcastsInDim S65536x784 (![] : Fin 0 → Fin S65536x784.rank)
  reducesTo_S65536x64_S65536_d1 : S65536x64.ReducesTo [1] S65536
  h_S_ : 0 < S_.numel
  bcast_S_S65536x64 : S_.BroadcastsInDim S65536x64 (![] : Fin 0 → Fin S65536x64.rank)
  bcast_S_S65536 : S_.BroadcastsInDim S65536 (![] : Fin 0 → Fin S65536.rank)
  bcast_S_S1x64 : S_.BroadcastsInDim S1x64 (![] : Fin 0 → Fin S1x64.rank)
  reducesTo_S1x64_S1_d1 : S1x64.ReducesTo [1] S1
  bcast_S1_S65536_0 : S1.BroadcastsInDim S65536 (![0] : Fin 1 → Fin S65536.rank)
  reducesTo_S65536x784_S_d0_1 : S65536x784.ReducesTo [0, 1] S_
  reducesTo_S65536_S_d0 : S65536.ReducesTo [0] S_
  dot_S65536x784_S784x1024_S65536x1024_1_0_0_1_n_n_wf : DotDims.WF S65536x784 S784x1024 S65536x1024 [1] [0] [0] [1] [] []
  dot_S65536x1024_S1024x64_S65536x64_1_0_0_1_n_n_wf : DotDims.WF S65536x1024 S1024x64 S65536x64 [1] [0] [0] [1] [] []
  dot_S65536x64_S64x1024_S65536x1024_1_0_0_1_n_n_wf : DotDims.WF S65536x64 S64x1024 S65536x1024 [1] [0] [0] [1] [] []
  dot_S65536x1024_S1024x784_S65536x784_1_0_0_1_n_n_wf : DotDims.WF S65536x1024 S1024x784 S65536x784 [1] [0] [0] [1] [] []

variable [Facts₀]

def dot_S65536x784_S784x1024_S65536x1024_1_0_0_1_n_n : DotDims S65536x784 S784x1024 S65536x1024 where
  lhsContracting := [1]
  rhsContracting := [0]
  lhsNonContracting := [0]
  rhsNonContracting := [1]
  lhsBatch := []
  rhsBatch := []
  wf := dot_S65536x784_S784x1024_S65536x1024_1_0_0_1_n_n_wf
def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf
def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def dot_S65536x1024_S1024x784_S65536x784_1_0_0_1_n_n : DotDims S65536x1024 S1024x784 S65536x784 where
  lhsContracting := [1]
  rhsContracting := [0]
  lhsNonContracting := [0]
  rhsNonContracting := [1]
  lhsBatch := []
  rhsBatch := []
  wf := dot_S65536x1024_S1024x784_S65536x784_1_0_0_1_n_n_wf

class Facts : Prop extends Facts₀ where

variable [Facts]
-- ==== Proof.Spec.lean ====
import Idealize.ShloMosaic.PureOps.Ideal

/-!
# The variational lower bound, as one function of the argument arrays

A variational auto-encoder's evidence lower bound over a batch, on the extended reals. For one batch row with
pixels `x : D → EReal` and noise `e : L → EReal`, and weights `P`:

* the encoder's hidden layer `hid k = tanh (∑ d, x d * We1 k d + be1 k)`,
* the posterior's mean `mu j = ∑ k, hid k * Wmu j k + bmu j` and log-variance `ls j` (the same with `Wls`, `bls`),
  its variance `sig j = exp (ls j)`, the sample `lat j = mu j + sqrt (sig j) * e j`,
* the decoder's hidden layer `hdec k = tanh (∑ j, lat j * Wd1 k j + bd1 k)` and pixel probabilities
  `prob d = logistic (∑ k, hdec k * Wd2 d k + bd2 d)`,
* the Bernoulli log-likelihood of a pixel `bern d = x d * log (prob d) + (1 - x d) * log (1 - prob d)`.

The row's contribution is `-log q + log p(z) + ∑ d, bern d`. Two arrangements of `log q` and `log p(z)` are
stated: one that sums the Gaussian normaliser once per row (`logqK`, `logpzK`: the constant `64·w` and `-32·w`
folded, the squared deviation written `sig · e²`), and one that sums it per latent coordinate (`logqR`,
`logpzR`: `∑ j, -½ (w + log sig j)`, the squared deviation written `(lat - mu)²`, the prior's unit variance
and zero mean spelt out). `w` is the single-precision word nearest `log 2π`.
The batch value divides the sum of the rows by the batch size.
-/

noncomputable section

namespace Cert.Elbo

open Idealize.ShloMosaic

/-- The ten weight arrays, indexed by pixel `D`, hidden unit `H` and latent coordinate `L`. -/
structure Params (D H L : Type) where
  We1 : H → D → EReal
  be1 : H → EReal
  Wmu : L → H → EReal
  bmu : L → EReal
  Wls : L → H → EReal
  bls : L → EReal
  Wd1 : H → L → EReal
  bd1 : H → EReal
  Wd2 : D → H → EReal
  bd2 : D → EReal

/-! ## The constants the two programs spell -/

/-- `1.0`. -/
def cOne : EReal := Ideal.ofBits .f32 0x3F800000#32
/-- `0.5`. -/
def cHalf : EReal := Ideal.ofBits .f32 0x3F000000#32
/-- `-0.5`. -/
def cNegHalf : EReal := Ideal.ofBits .f32 0xBF000000#32
/-- `64.0`, the number of latent coordinates. -/
def c64 : EReal := Ideal.ofBits .f32 0x42800000#32
/-- `w`: the single-precision word nearest `log 2π`. -/
def cW : EReal := Ideal.ofBits .f32 0x3FEB3F8E#32
/-- `64 · w` (the same mantissa, exponent raised by six). -/
def cW64 : EReal := Ideal.ofBits .f32 0x42EB3F8E#32
/-- `-32 · w` (the same mantissa, exponent raised by five, sign set). -/
def cWm32 : EReal := Ideal.ofBits .f32 0xC26B3F8E#32
/-- `65536.0`, the batch size. -/
def cBatch : EReal := Ideal.ofBits .f32 0x47800000#32

variable {D H L : Type} [Fintype D] [Fintype H] [Fintype L]

/-! ## One batch row -/

section row

variable (P : Params D H L) (x : D → EReal) (e : L → EReal)

/-- The encoder's hidden layer. -/
def hid (k : H) : EReal := Ideal.tanh ((∑ d, x d * P.We1 k d) + P.be1 k)

/-- The posterior's mean. -/
def mu (j : L) : EReal := (∑ k, hid P x k * P.Wmu j k) + P.bmu j

/-- The posterior's log-variance. -/
def ls (j : L) : EReal := (∑ k, hid P x k * P.Wls j k) + P.bls j

/-- The posterior's variance. -/
def sig (j : L) : EReal := Ideal.exp (ls P x j)

/-- The reparameterised sample. -/
def lat (j : L) : EReal := mu P x j + Ideal.sqrt (sig P x j) * e j

/-- The decoder's hidden layer. -/
def hdec (k : H) : EReal := Ideal.tanh ((∑ j, lat P x e j * P.Wd1 k j) + P.bd1 k)

/-- The decoder's pixel probabilities. -/
def prob (d : D) : EReal := Ideal.logistic ((∑ k, hdec P x e k * P.Wd2 d k) + P.bd2 d)

/-- A pixel's Bernoulli log-likelihood. -/
def bern (d : D) : EReal :=
  x d * Ideal.log (prob P x e d) + (cOne - x d) * Ideal.log (cOne - prob P x e d)

/-- `log q(z|x)` with the normaliser summed once per row. -/
def logqK : EReal :=
  cNegHalf * (cW64 + ∑ j, Ideal.log (sig P x j)) - (cHalf * ∑ j, sig P x j * (e j * e j)) * ∑ j, sig P x j

/-- `log p(z)` with the normaliser folded to one constant. -/
def logpzK : EReal :=
  cWm32 - (cHalf * ∑ j, lat P x e j * lat P x e j) * c64

/-- The row's contribution, first arrangement. -/
def rowK : EReal := ((0 - logqK P x e) + logpzK P x e) + ∑ d, bern P x e d

/-- `log q(z|x)` with the normaliser summed per latent coordinate and the deviation as `lat - mu`. -/
def logqR : EReal :=
  (∑ j, cNegHalf * (cW + Ideal.log (sig P x j)))
    - (cHalf * ∑ j, (lat P x e j - mu P x j) * (lat P x e j - mu P x j)) * ∑ j, sig P x j

/-- `log p(z)` as the same density at mean `0` and variance `1`, both spelt out. -/
def logpzR : EReal :=
  (∑ _j : L, cNegHalf * (cW + Ideal.log cOne))
    - (cHalf * ∑ j, (lat P x e j - 0) * (lat P x e j - 0)) * ∑ _j : L, cOne

/-- The row's prior-minus-posterior part, second arrangement. -/
def rowR : EReal := -(logqR P x e) + logpzR P x e

end row

/-! ## The batch -/

variable {N : Type} [Fintype N]

/-- The bound over a batch, rows summed whole. -/
def elboK (P : Params D H L) (X : N → D → EReal) (E : N → L → EReal) : EReal :=
  Ideal.div (∑ n, rowK P (X n) (E n)) cBatch

/-- The bound over a batch, the likelihood summed over every pixel of every row apart from the rest. -/
def elboR (P : Params D H L) (X : N → D → EReal) (E : N → L → EReal) : EReal :=
  Ideal.div ((∑ n, rowR P (X n) (E n)) + ∑ n, ∑ d, bern P (X n) (E n) d) cBatch

end Cert.Elbo

end
-- ==== Proof.SpecArrays.lean ====
import proofs.«142983_j31499290149445_2_alg».proof.Proof.Spec
import Idealize.ShloMosaic.Lib.ValueIdx

/-!
# The bound as a function of the twelve argument arrays

The arrays are functions on row-major indices of literal shapes; `ix1` / `ix2` build an index from its
coordinates. The weights are stored output-unit-major (`We1 : [1024, 784]` is hidden unit × pixel, and so on),
which is how `Cert.Elbo.Params` indexes them, so no transposition appears here.
-/

noncomputable section

namespace Cert.Elbo

open Idealize.ShloMosaic Idealize.ShloMosaic.ValueIdx

/-- The ten weight arrays as `Params` over 784 pixels, 1024 hidden units and 64 latent coordinates. -/
def paramsOf
    (a2 : (⟨2, ![1024, 784]⟩ : Shape).Idx → EReal) (a3 : (⟨1, ![1024]⟩ : Shape).Idx → EReal)
    (a4 : (⟨2, ![64, 1024]⟩ : Shape).Idx → EReal) (a5 : (⟨1, ![64]⟩ : Shape).Idx → EReal)
    (a6 : (⟨2, ![64, 1024]⟩ : Shape).Idx → EReal) (a7 : (⟨1, ![64]⟩ : Shape).Idx → EReal)
    (a8 : (⟨2, ![1024, 64]⟩ : Shape).Idx → EReal) (a9 : (⟨1, ![1024]⟩ : Shape).Idx → EReal)
    (a10 : (⟨2, ![784, 1024]⟩ : Shape).Idx → EReal) (a11 : (⟨1, ![784]⟩ : Shape).Idx → EReal) :
    Params (Fin 784) (Fin 1024) (Fin 64) where
  We1 k d := a2 (ix2 k d)
  be1 k := a3 (ix1 k)
  Wmu j k := a4 (ix2 j k)
  bmu j := a5 (ix1 j)
  Wls j k := a6 (ix2 j k)
  bls j := a7 (ix1 j)
  Wd1 k j := a8 (ix2 k j)
  bd1 k := a9 (ix1 k)
  Wd2 d k := a10 (ix2 d k)
  bd2 d := a11 (ix1 d)

/-- The rows of a two-axis array. -/
def rowsOf {n0 n1 : Nat} (a : (⟨2, ![n0, n1]⟩ : Shape).Idx → EReal) : Fin n0 → Fin n1 → EReal :=
  fun n d => a (ix2 n d)

/-- The bound of the twelve arrays, rows summed whole (the first arrangement). -/
def elboKOf
    (a0 : (⟨2, ![65536, 784]⟩ : Shape).Idx → EReal) (a1 : (⟨2, ![65536, 64]⟩ : Shape).Idx → EReal)
    (a2 : (⟨2, ![1024, 784]⟩ : Shape).Idx → EReal) (a3 : (⟨1, ![1024]⟩ : Shape).Idx → EReal)
    (a4 : (⟨2, ![64, 1024]⟩ : Shape).Idx → EReal) (a5 : (⟨1, ![64]⟩ : Shape).Idx → EReal)
    (a6 : (⟨2, ![64, 1024]⟩ : Shape).Idx → EReal) (a7 : (⟨1, ![64]⟩ : Shape).Idx → EReal)
    (a8 : (⟨2, ![1024, 64]⟩ : Shape).Idx → EReal) (a9 : (⟨1, ![1024]⟩ : Shape).Idx → EReal)
    (a10 : (⟨2, ![784, 1024]⟩ : Shape).Idx → EReal) (a11 : (⟨1, ![784]⟩ : Shape).Idx → EReal) : EReal :=
  elboK (paramsOf a2 a3 a4 a5 a6 a7 a8 a9 a10 a11) (rowsOf a0) (rowsOf a1)

/-- The bound of the twelve arrays, the likelihood summed apart (the second arrangement). -/
def elboROf
    (a0 : (⟨2, ![65536, 784]⟩ : Shape).Idx → EReal) (a1 : (⟨2, ![65536, 64]⟩ : Shape).Idx → EReal)
    (a2 : (⟨2, ![1024, 784]⟩ : Shape).Idx → EReal) (a3 : (⟨1, ![1024]⟩ : Shape).Idx → EReal)
    (a4 : (⟨2, ![64, 1024]⟩ : Shape).Idx → EReal) (a5 : (⟨1, ![64]⟩ : Shape).Idx → EReal)
    (a6 : (⟨2, ![64, 1024]⟩ : Shape).Idx → EReal) (a7 : (⟨1, ![64]⟩ : Shape).Idx → EReal)
    (a8 : (⟨2, ![1024, 64]⟩ : Shape).Idx → EReal) (a9 : (⟨1, ![1024]⟩ : Shape).Idx → EReal)
    (a10 : (⟨2, ![784, 1024]⟩ : Shape).Idx → EReal) (a11 : (⟨1, ![784]⟩ : Shape).Idx → EReal) : EReal :=
  elboR (paramsOf a2 a3 a4 a5 a6 a7 a8 a9 a10 a11) (rowsOf a0) (rowsOf a1)

end Cert.Elbo

end
-- ==== Proof.KernelTile.lean ====
import proofs.«142983_j31499290149445_2_alg».proof.Proof.Gen.KernelIdeal.Skeleton
import proofs.«142983_j31499290149445_2_alg».proof.Proof.SpecArrays

/-!
# One grid point's arithmetic, named

At a grid point the kernel holds a tile of 1024 batch rows (`x0`: pixels, `x1`: noise), the ten weight blocks
(`x2 … x11`: the weight matrices transposed, the biases as one-row matrices) and the running total `acc`, a
one-by-one block. `tileStep` is the new running total: the body's payloads composed as the body composes them.
`tileParams` reads the weight blocks back as the specification's weights (undoing the transposition).
-/

noncomputable section

namespace Cert.KernelIdeal.Tile

open Idealize.ShloMosaic Idealize.ShloMosaic.ValueIdx Cert.KernelIdeal Cert.KernelIdeal.Gen

/-- The running total after one more tile: the old total plus the tile's rows, as the body computes it. -/
def tileStep {F : FTy → Type} [FloatOps F]
    (x0 : Vec F S1024x784 .f32) (x1 : Vec F S1024x64 .f32) (x2 : Vec F S784x1024 .bf16) (x3 : Vec F S1x1024 .f32)
    (x4 : Vec F S1024x64 .bf16) (x5 : Vec F S1x64 .f32) (x6 : Vec F S1024x64 .bf16) (x7 : Vec F S1x64 .f32)
    (x8 : Vec F S64x1024 .bf16) (x9 : Vec F S1x1024 .f32) (x10 : Vec F S1024x784 .bf16) (x11 : Vec F S1x784 .f32)
    (acc : Vec F S1x1 .f32) : FVec F S1x1 .f32 :=
  k0_pay1 x0 (k0_pay8 (k0_pay7 x0 x1 x2 x3 x4 x5 x6 x7) x8 x9 x10 x11) (k0_pay9 x1 (k0_pay5 x0 x2 x3 x6 x7))
    (k0_pay10 (k0_pay6 x0 x1 x2 x3 x4 x5 x6 x7)) acc

/-- The weight blocks as the specification's weights: a transposed matrix read at the swapped coordinates, a
    one-row bias at row `0`. -/
def tileParams
    (x2 : Vec Ideal S784x1024 .bf16) (x3 : Vec Ideal S1x1024 .f32)
    (x4 : Vec Ideal S1024x64 .bf16) (x5 : Vec Ideal S1x64 .f32) (x6 : Vec Ideal S1024x64 .bf16) (x7 : Vec Ideal S1x64 .f32)
    (x8 : Vec Ideal S64x1024 .bf16) (x9 : Vec Ideal S1x1024 .f32) (x10 : Vec Ideal S1024x784 .bf16) (x11 : Vec Ideal S1x784 .f32) :
    Cert.Elbo.Params (Fin 784) (Fin 1024) (Fin 64) where
  We1 k d := x2 (ix2 d k)
  be1 k := x3 (ix2 0 k)
  Wmu j k := x4 (ix2 k j)
  bmu j := x5 (ix2 0 j)
  Wls j k := x6 (ix2 k j)
  bls j := x7 (ix2 0 j)
  Wd1 k j := x8 (ix2 j k)
  bd1 k := x9 (ix2 0 k)
  Wd2 d k := x10 (ix2 k d)
  bd2 d := x11 (ix2 0 d)

end Cert.KernelIdeal.Tile

end
-- ==== Proof.KernelRun.lean ====
import proofs.«142983_j31499290149445_2_alg».proof.Proof.Gen.KernelIdeal.Frame
import proofs.«142983_j31499290149445_2_alg».proof.Proof.KernelTile
import Idealize.ShloMosaic.Lib.Pipeline.Value
import Idealize.ShloMosaic.Lib.StableHlo.Run
import Idealize.ShloMosaic.Lib.Tactic

/-!
# What the kernel's program leaves in its result

The grid has 64 points; point `t` holds batch rows `1024 t … 1024 t + 1023`. A one-by-one scratch block carries
the running total from point to point: the first point resets it to zero before adding its tile, every later
point adds its tile to what the point before left, and every point writes the total divided by the batch size
into the one-by-one output block, whose index never moves, so that it is written back once, after the last
point. Here the contents the frame run found for the scratch and the output are read back as those values
(`sout_A`, `out_A` at the first point; `sout_B`, `out_B` at the others), the running total is named by
recursion on the point (`total`), and the output array after the run (`final`), then the scalar the host reshapes it
to (`run`), are the last total over the batch size.
-/

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Tile

variable {F : FTy → Type} [FloatOps F]

/-- The zero offset of a two-axis block. -/
theorem hz : (![0, 0] : Fin 2 → Nat) = fun _ => 0 := funext fun a => by fin_cases a <;> rfl

/-! ## The two cases' contents, read back -/

/-- A later point leaves in the scratch the old total plus its tile. -/
theorem sout_B (c : Dev nD) (i : grid0.Coords) (arg1 : Memref sig .tc .vmem S1024x784 .f32) (harg1 : arg1.IsWhole) (arg2 : Memref sig .tc .vmem S1024x64 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x64 .bf16) (harg5 : arg5.IsWhole) (arg6 : Memref sig .tc .vmem S1x64 .f32) (harg6 : arg6.IsWhole) (arg7 : Memref sig .tc .vmem S1024x64 .bf16) (harg7 : arg7.IsWhole) (arg8 : Memref sig .tc .vmem S1x64 .f32) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x784 .bf16) (harg11 : arg11.IsWhole) (arg12 : Memref sig .tc .vmem S1x784 .f32) (harg12 : arg12.IsWhole) (arg13 : Memref sig .tc .vmem S1x1 .f32) (harg13 : arg13.IsWhole) (arg14 : Memref sig .tc .vmem S1x1 .f32) (harg14 : arg14.IsWhole) (hc0 : ¬cond0_0 i)
    (x0 : Vec F S1024x784 .f32) (x1 : Vec F S1024x64 .f32) (x2 : Vec F S784x1024 .bf16) (x3 : Vec F S1x1024 .f32) (x4 : Vec F S1024x64 .bf16) (x5 : Vec F S1x64 .f32) (x6 : Vec F S1024x64 .bf16) (x7 : Vec F S1x64 .f32) (x8 : Vec F S64x1024 .bf16) (x9 : Vec F S1x1024 .f32) (x10 : Vec F S1024x784 .bf16) (x11 : Vec F S1x784 .f32) (xs0 : Vec F S1x1 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs0 = tileStep x0 x1 x2 x3 x4 x5 x6 x7 x8 x9 x10 x11 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x784) hz, View.ld_unit_zero (S := S1024x64) hz, View.ld_unit_zero (S := S784x1024) hz, View.ld_unit_zero (S := S1x1024) hz, View.ld_unit_zero (S := S1x64) hz, View.ld_unit_zero (S := S64x1024) hz, View.ld_unit_zero (S := S1x784) hz, View.ld_unit_zero (S := S1x1) hz]
  rfl

/-- … and in the output that new total over the batch size. -/
theorem out_B (c : Dev nD) (i : grid0.Coords) (arg1 : Memref sig .tc .vmem S1024x784 .f32) (harg1 : arg1.IsWhole) (arg2 : Memref sig .tc .vmem S1024x64 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x64 .bf16) (harg5 : arg5.IsWhole) (arg6 : Memref sig .tc .vmem S1x64 .f32) (harg6 : arg6.IsWhole) (arg7 : Memref sig .tc .vmem S1024x64 .bf16) (harg7 : arg7.IsWhole) (arg8 : Memref sig .tc .vmem S1x64 .f32) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x784 .bf16) (harg11 : arg11.IsWhole) (arg12 : Memref sig .tc .vmem S1x784 .f32) (harg12 : arg12.IsWhole) (arg13 : Memref sig .tc .vmem S1x1 .f32) (harg13 : arg13.IsWhole) (arg14 : Memref sig .tc .vmem S1x1 .f32) (harg14 : arg14.IsWhole) (hc0 : ¬cond0_0 i)
    (x0 : Vec F S1024x784 .f32) (x1 : Vec F S1024x64 .f32) (x2 : Vec F S784x1024 .bf16) (x3 : Vec F S1x1024 .f32) (x4 : Vec F S1024x64 .bf16) (x5 : Vec F S1x64 .f32) (x6 : Vec F S1024x64 .bf16) (x7 : Vec F S1x64 .f32) (x8 : Vec F S64x1024 .bf16) (x9 : Vec F S1x1024 .f32) (x10 : Vec F S1024x784 .bf16) (x11 : Vec F S1x784 .f32) (xs0 : Vec F S1x1 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs0 = k0_pay2 (tileStep x0 x1 x2 x3 x4 x5 x6 x7 x8 x9 x10 x11 xs0) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 xs0)]
  unfold kernelRun0_B
  dsimp only
  sl_unfold_words
  rw [View.canon_unit_zero hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x784) hz, View.ld_unit_zero (S := S1024x64) hz, View.ld_unit_zero (S := S784x1024) hz, View.ld_unit_zero (S := S1x1024) hz, View.ld_unit_zero (S := S1x64) hz, View.ld_unit_zero (S := S64x1024) hz, View.ld_unit_zero (S := S1x784) hz, View.ld_unit_zero (S := S1x1) hz]
  rfl

/-- The first point stores zero in the scratch, reads it back, and leaves zero plus its tile. -/
theorem sout_A (c : Dev nD) (i : grid0.Coords) (arg1 : Memref sig .tc .vmem S1024x784 .f32) (harg1 : arg1.IsWhole) (arg2 : Memref sig .tc .vmem S1024x64 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x64 .bf16) (harg5 : arg5.IsWhole) (arg6 : Memref sig .tc .vmem S1x64 .f32) (harg6 : arg6.IsWhole) (arg7 : Memref sig .tc .vmem S1024x64 .bf16) (harg7 : arg7.IsWhole) (arg8 : Memref sig .tc .vmem S1x64 .f32) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x784 .bf16) (harg11 : arg11.IsWhole) (arg12 : Memref sig .tc .vmem S1x784 .f32) (harg12 : arg12.IsWhole) (arg13 : Memref sig .tc .vmem S1x1 .f32) (harg13 : arg13.IsWhole) (arg14 : Memref sig .tc .vmem S1x1 .f32) (harg14 : arg14.IsWhole) (hc0 : cond0_0 i)
    (x0 : Vec F S1024x784 .f32) (x1 : Vec F S1024x64 .f32) (x2 : Vec F S784x1024 .bf16) (x3 : Vec F S1x1024 .f32) (x4 : Vec F S1024x64 .bf16) (x5 : Vec F S1x64 .f32) (x6 : Vec F S1024x64 .bf16) (x7 : Vec F S1x64 .f32) (x8 : Vec F S64x1024 .bf16) (x9 : Vec F S1x1024 .f32) (x10 : Vec F S1024x784 .bf16) (x11 : Vec F S1x784 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 = tileStep x0 x1 x2 x3 x4 x5 x6 x7 x8 x9 x10 x11 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11)]
  unfold kernelRun0_A
  dsimp only
  sl_unfold_words
  rw [View.canon_cons_unit_zero (S := S1x1) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x784) hz, View.ld_unit_zero (S := S1024x64) hz, View.ld_unit_zero (S := S784x1024) hz, View.ld_unit_zero (S := S1x1024) hz, View.ld_unit_zero (S := S1x64) hz, View.ld_unit_zero (S := S64x1024) hz, View.ld_unit_zero (S := S1x784) hz, View.ld_unit_zero (S := S1x1) hz, View.readCov_unit_zero (S := S1x1) _ hz]
  rfl

/-- … and in the output that total over the batch size. -/
theorem out_A (c : Dev nD) (i : grid0.Coords) (arg1 : Memref sig .tc .vmem S1024x784 .f32) (harg1 : arg1.IsWhole) (arg2 : Memref sig .tc .vmem S1024x64 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x64 .bf16) (harg5 : arg5.IsWhole) (arg6 : Memref sig .tc .vmem S1x64 .f32) (harg6 : arg6.IsWhole) (arg7 : Memref sig .tc .vmem S1024x64 .bf16) (harg7 : arg7.IsWhole) (arg8 : Memref sig .tc .vmem S1x64 .f32) (harg8 : arg8.IsWhole) (arg9 : Memref sig .tc .vmem S64x1024 .bf16) (harg9 : arg9.IsWhole) (arg10 : Memref sig .tc .vmem S1x1024 .f32) (harg10 : arg10.IsWhole) (arg11 : Memref sig .tc .vmem S1024x784 .bf16) (harg11 : arg11.IsWhole) (arg12 : Memref sig .tc .vmem S1x784 .f32) (harg12 : arg12.IsWhole) (arg13 : Memref sig .tc .vmem S1x1 .f32) (harg13 : arg13.IsWhole) (arg14 : Memref sig .tc .vmem S1x1 .f32) (harg14 : arg14.IsWhole) (hc0 : cond0_0 i)
    (x0 : Vec F S1024x784 .f32) (x1 : Vec F S1024x64 .f32) (x2 : Vec F S784x1024 .bf16) (x3 : Vec F S1x1024 .f32) (x4 : Vec F S1024x64 .bf16) (x5 : Vec F S1x64 .f32) (x6 : Vec F S1024x64 .bf16) (x7 : Vec F S1x64 .f32) (x8 : Vec F S64x1024 .bf16) (x9 : Vec F S1x1024 .f32) (x10 : Vec F S1024x784 .bf16) (x11 : Vec F S1x784 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11 = k0_pay2 (tileStep x0 x1 x2 x3 x4 x5 x6 x7 x8 x9 x10 x11 (k0_pay3 (F := F))) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 x11)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1024x784) hz, View.ld_unit_zero (S := S1024x64) hz, View.ld_unit_zero (S := S784x1024) hz, View.ld_unit_zero (S := S1x1024) hz, View.ld_unit_zero (S := S1x64) hz, View.ld_unit_zero (S := S64x1024) hz, View.ld_unit_zero (S := S1x784) hz, View.ld_unit_zero (S := S1x1) hz, View.readCov_unit_zero (S := S1x1) _ hz, View.readCov_cons_toLoadRect]
  rfl

/-! ## The running total -/

variable (m : (ℓ : Loc nD τ sig) → Buf (Elt F) ℓ) (ρ : Dev nD → PrngReg)

/-- The running total after point `n`: zero plus the first tile, then plus tile `n`. -/
def total (c : Dev nD) : (n : ℕ) → n < cfg0.N → Vec F S1x1 .f32
  | 0, h => tileStep (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (k0_pay3 (F := F))
  | n + 1, h => tileStep (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (total c n (Nat.lt_of_succ_lt h))

/-- After point `n` the output's staging block holds the running total over the batch size and the scratch the
    running total: by induction on the point. -/
theorem outsAt_eq (c : Dev nD) : ∀ (n : ℕ) (h : n < cfg0.N), outsAt0 m c n h = (k0_pay2 (total m c n h), total m c n h)
  | 0, h => by
    refine (outsAt0_A m c ⟨0, h⟩ rfl).trans ?_
    rw [out_A, sout_A]
    rfl
  | n + 1, h => by
    have hN : cfg0.N = 64 := N_0
    have hB : ¬(⟨n + 1, h⟩ : Fin cfg0.N).val % 64 = 0 := by dsimp only; omega
    refine (outsAt0_B m c ⟨n + 1, h⟩ hB).trans ?_
    rw [out_B, sout_B]
    show (k0_pay2 (tileStep (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (outsAt0 m c n _).2), tileStep (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (outsAt0 m c n _).2) = _
    rw [outsAt_eq c n]
    rfl

/-! ## The output array after the run -/

/-- The last point. -/
abbrev tLast : Fin cfg0.N := ⟨63, by rw [show cfg0.N = 64 from N_0]; decide⟩

/-- The last running total over the batch size, as contents of the output array (its one block is the array). -/
abbrev result (c : Dev nD) : Buf (Elt F) ((c : Thread nD τ).loc main_v15) := k0_pay2 (total m c 63 tLast.isLt)

/-- The one write-back, after the last point, writes it: block (0, 0) of the one-by-one array is the array. -/
theorem flushed_eq (c : Dev nD) (t : Fin cfg0.N) (hf : (cfg0.win 12).flush t = true) :
    (dats m 0 c).flushed 12 t = ((cfg0.win 12).blk t).view.read (Elt F) (result m c) := by
  have hN : cfg0.N = 64 := N_0
  have h63 : t.val = 63 := by have := (flush0_12 t).mp hf; have := t.isLt; omega
  obtain rfl : t = tLast := Fin.ext h63
  show (cfg0.win 12).cut (grid0.coords tLast) ((dats m 0 c).after 12 tLast) = _
  rw [after0_12, outsAt_eq]
  have hz' : (fun a => win0_12.index tLast a * main_v15.ty.shape.size a) = fun _ => 0 := funext fun a => by fin_cases a <;> decide
  exact (Memref.read_access_unit_zero (Elt F) main_v15 hz' (fun a => by rw [congrFun hz' a]; simp) (result m c)).symm

/-- So the output array ends holding the last running total over the batch size: the last point's block covers it. -/
theorem final (c : Dev nD) : (dats m 0 c).arrAt 12 cfg0.N = result m c :=
  (dats m 0 c).arrAt_eq_of_cover 12 (result m c) (flushed_eq m c) fun i =>
    ⟨tLast, (flush0_12 tLast).mpr rfl, by
      show i ∈ ((View.whole main_v15).slice (win0_12.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_12.index tLast 0 * win0_12.size 0 ≤ (i 0 : Nat) ∧ (i 0 : Nat) < win0_12.index tLast 0 * win0_12.size 0 + win0_12.xsize (grid0.coords tLast) 0
                  rw [show win0_12.index tLast 0 * win0_12.size 0 = 0 from by decide +kernel, show win0_12.xsize (grid0.coords tLast) 0 = 1 from by decide +kernel]; omega
      | ⟨1, _⟩ => show win0_12.index tLast 1 * win0_12.size 1 ≤ (i 1 : Nat) ∧ (i 1 : Nat) < win0_12.index tLast 1 * win0_12.size 1 + win0_12.xsize (grid0.coords tLast) 1
                  rw [show win0_12.index tLast 1 * win0_12.size 1 = 0 from by decide +kernel, show win0_12.xsize (grid0.coords tLast) 1 = 1 from by decide +kernel]; omega⟩

/-! ## The scalar the host reshapes the output array to -/

/-- After the region the host reshapes the one-by-one array to a scalar: its one entry is the array's. -/
theorem tail (c : Dev nD) (j : main_v16.ty.shape.Idx) :
    Pipeline.afterTail₀ cfgs (dats m) 0 (V0 m) [hostOps1] c main_v16 j = result m c (ValueIdx.ix2 0 0) := by
  unfold Pipeline.afterTail₀
  show StableHlo.after hostOps1 _ (Proc.devRef .tc main_v16) j = _
  after_results
  rw [show Pipeline.withArrays (cfgs 0).spec c (V0 m c) (fun w => (dats m 0 c).arrAt w (cfgs 0).N) (Proc.tc.devRef main_v15)
      = result m c from (Pipeline.withArrays_arr spec0 launch0.win.arr_inj c _ _ 12).trans (final m c)]
  exact shapeCast_apply (result m c) shapeCasts_S1x1_S_ j (ValueIdx.ix2 0 0) (by
    have h1 := (S1x1.rowMajor (ValueIdx.ix2 0 0)).isLt
    have h2 := (S_.rowMajor j).isLt
    have e1 : S1x1.numel = 1 := by decide
    have e2 : S_.numel = 1 := by decide
    show (S1x1.rowMajor (ValueIdx.ix2 0 0)).val = (S_.rowMajor j).val
    omega)

/-- The run, read: the result at the last running total over the batch size, every argument unchanged. -/
theorem run : θ_run defs (onTc (τ := τ) (main (F := F))) ⟨m, fun _ => 0, ρ⟩ fun r => ∀ c : Dev nD,
      r.2.mem ((c.tc : Thread nD τ).loc main_v16) = (fun _ => result m c (ValueIdx.ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨funext fun j => (congrFun ((h c).2 main_v16 (Pipeline.mem_restRefs_of main_v16 (by decide) (by decide))) j).trans (tail m c j),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.KValue

end
-- ==== Proof.KernelTileValue.lean ====
import proofs.«142983_j31499290149445_2_alg».proof.Proof.KernelTile
import Idealize.ShloMosaic.Lib.ValueIdx
import Idealize.ShloMosaic.Lib.Pipeline.Value
import Idealize.ShloMosaic.Lib.ValueLayout
import Idealize.ShloMosaic.PureOps.Ideal.Laws

/-!
# One grid point's arithmetic, read index by index

`tileStep` (the body's payloads composed) is read at its one index as the old running total plus the sum, over the
tile's 1024 rows, of `Cert.Elbo.rowK` of the row: each payload is read at a row `r` of the tile as the specification's
function of that row's pixels `rowsOf x0 r`, its noise `rowsOf x1 r` and the weights `tileParams x2 … x11`.

* A matrix product into the zero splat is the plain sum over the contracted coordinate; a one-row bias broadcast down
  the rows reads its one row; a narrowing to sixteen bits is the identity on extended reals; a shape cast to the same
  shape is the identity. So the three encoder products give `hid`, `sig`, `lat` and the two decoder products `prob`.
* A sum along the lanes of a row, kept as a one-column block, is the `Fin`-indexed sum over the lanes: `log q` and
  `log p(z)` in the arrangement that sums the normaliser once per row, and a row's Bernoulli log-likelihood.
* The sum down the rows of the one-column block of row contributions, kept as a one-by-one block, is the sum over
  the rows; it is added to the old total.
-/

noncomputable section

namespace Cert.KernelIdeal.Tile

open Cert.KernelIdeal Cert.KernelIdeal.Gen Idealize.ShloMosaic Idealize.ShloMosaic.ValueIdx

/-! ## Layout operations at coordinates -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum along the rows' lanes: the reduction of an `[a, b]` array over axis 1, read at row `r`, is the sum over
    the lane `k` of the array at `(r, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  refine Fin.ext ?_
  match c with
  | ⟨0, _⟩ => rfl
  | ⟨1, _⟩ => rfl

/-- A sum down the rows: the reduction of an `[a, b]` array over axis 0, read at lane `c`, is the sum over the row
    `k` of the array at `(k, c)`. -/
theorem rowSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext d
  refine Fin.ext ?_
  match d with
  | ⟨0, _⟩ => rfl
  | ⟨1, _⟩ => rfl

/-! ## A matrix product at coordinates -/

/-- A plain matrix product (`[m, k]` by `[k, n]`: the left operand's axis 1 contracted with the right's axis 0, no
    batch axis) into the zero splat reads, at `(r, c)`, the sum over `q` of the left operand at `(r, q)` times the
    right operand at `(q, c)`. -/
theorem matmul_plain_apply {m k n : ℕ} {φ₁ φ₂ : FTy}
    (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (prec : Option ContractPrecision)
    (lhs : FVec Ideal ⟨2, ![m, k]⟩ φ₁) (rhs : FVec Ideal ⟨2, ![k, n]⟩ φ₂) (r : Fin m) (c : Fin n) :
    matmul D prec lhs rhs (constant ⟨2, ![m, n]⟩ .f32 0x00000000#32) (ix2 r c)
      = ∑ q : Fin k, lhs (ix2 r q) * rhs (ix2 q c) := by
  obtain ⟨lc, rc, ln, rn, lb, rb, wf⟩ := D
  obtain rfl : lc = [1] := hlc
  obtain rfl : rc = [0] := hrc
  obtain rfl : ln = [0] := hln
  obtain rfl : rn = [1] := hrn
  obtain rfl : lb = [] := hlb
  obtain rfl : rb = [] := hrb
  refine (Ideal.matmul_constant_zero_apply _ prec lhs rhs (ix2 r c)).trans ?_
  rw [← Equiv.sum_comp (contrEquiv1 (DotDims.mk [1] [0] [0] [1] [] [] wf) k rfl rfl).symm]
  refine Finset.sum_congr rfl fun q _ => ?_
  have hq := contrEquiv1_symm_val (DotDims.mk [1] [0] [0] [1] [] [] wf) k rfl rfl q
  have el : (DotDims.mk [1] [0] [0] [1] [] [] wf : DotDims ⟨2, ![m, k]⟩ ⟨2, ![k, n]⟩ ⟨2, ![m, n]⟩).lhsIdx (ix2 r c)
      ((contrEquiv1 (DotDims.mk [1] [0] [0] [1] [] [] wf) k rfl rfl).symm q) = ix2 r q := funext fun a => Fin.ext (by
    match a with
    | ⟨0, h0⟩ =>
      have hn : (⟨0, h0⟩ : Fin (Shape.rank ⟨2, ![m, k]⟩)) ∈ ([0] : List (Fin (Shape.rank ⟨2, ![m, k]⟩))) :=
        List.mem_singleton.mpr rfl
      unfold DotDims.lhsIdx
      rw [dif_neg List.not_mem_nil, dif_pos hn]
      rfl
    | ⟨1, _⟩ => exact (DotDims.lhsIdx_val_of_single _ rfl _ _).trans hq)
  have er : (DotDims.mk [1] [0] [0] [1] [] [] wf : DotDims ⟨2, ![m, k]⟩ ⟨2, ![k, n]⟩ ⟨2, ![m, n]⟩).rhsIdx (ix2 r c)
      ((contrEquiv1 (DotDims.mk [1] [0] [0] [1] [] [] wf) k rfl rfl).symm q) = ix2 q c := funext fun a => Fin.ext (by
    match a with
    | ⟨0, _⟩ => exact (DotDims.rhsIdx_val_of_single _ rfl _ _).trans hq
    | ⟨1, h1⟩ =>
      have hn : (⟨1, h1⟩ : Fin (Shape.rank ⟨2, ![k, n]⟩)) ∈ ([1] : List (Fin (Shape.rank ⟨2, ![k, n]⟩))) :=
        List.mem_singleton.mpr rfl
      unfold DotDims.rhsIdx
      rw [dif_neg List.not_mem_nil, dif_pos hn]
      rfl)
  rw [el, er]

/-! ## The payloads at coordinates

`x0` is the tile's pixels and `x1` its noise, `x2 … x11` the ten weight blocks; `P` below abbreviates the weights
read back from the blocks. Each payload is read at one row `r` of the tile. -/

section Payloads

variable (x0 : Vec Ideal S1024x784 .f32) (x1 : Vec Ideal S1024x64 .f32) (x2 : Vec Ideal S784x1024 .bf16)
  (x3 : Vec Ideal S1x1024 .f32) (x4 : Vec Ideal S1024x64 .bf16) (x5 : Vec Ideal S1x64 .f32)
  (x6 : Vec Ideal S1024x64 .bf16) (x7 : Vec Ideal S1x64 .f32) (x8 : Vec Ideal S64x1024 .bf16)
  (x9 : Vec Ideal S1x1024 .f32) (x10 : Vec Ideal S1024x784 .bf16) (x11 : Vec Ideal S1x784 .f32)

/-- The encoder's hidden layer: the first product, its bias and `tanh` (the narrowing to sixteen bits is the identity on
    extended reals). -/
theorem pay4_apply (r k : Fin 1024) :
    k0_pay4 (F := Ideal) x0 x2 x3 (ix2 r k)
      = Cert.Elbo.hid (tileParams x2 x3 x4 x5 x6 x7 x8 x9 x10 x11) (Cert.Elbo.rowsOf x0 r) k := by
  unfold k0_pay4
  refine (congrArg Ideal.tanh (congrArg₂ (· + ·)
    (matmul_plain_apply dot_S1024x784_S784x1024_S1024x1024_1_0_0_1_n_n rfl rfl rfl rfl rfl rfl none _ _ r k)
    (broadcastTo_1b_ab_apply _ broadcasts_S1x1024_S1024x1024 r k))).trans ?_
  rw [shapeCast_self, shapeCast_self]
  rfl

/-- The posterior's variance: the log-variance product over the hidden layer, its bias and `exp`. -/
theorem pay5_apply (r : Fin 1024) (j : Fin 64) :
    k0_pay5 (F := Ideal) x0 x2 x3 x6 x7 (ix2 r j)
      = Cert.Elbo.sig (tileParams x2 x3 x4 x5 x6 x7 x8 x9 x10 x11) (Cert.Elbo.rowsOf x0 r) j := by
  unfold k0_pay5
  refine (congrArg Ideal.exp (congrArg₂ (· + ·)
    (matmul_plain_apply dot_S1024x1024_S1024x64_S1024x64_1_0_0_1_n_n rfl rfl rfl rfl rfl rfl none _ _ r j)
    (broadcastTo_1b_ab_apply _ broadcasts_S1x64_S1024x64 r j))).trans ?_
  rw [shapeCast_self, shapeCast_self]
  unfold Cert.Elbo.sig Cert.Elbo.ls
  refine congrArg Ideal.exp (congrArg₂ (· + ·) (Finset.sum_congr rfl fun k _ => ?_) rfl)
  rw [pay4_apply x0 x2 x3 x4 x5 x6 x7 x8 x9 x10 x11 r k]
  rfl

/-- The reparameterised sample: the mean product over the hidden layer and its bias, plus the standard deviation
    times the noise. -/
theorem pay6_apply (r : Fin 1024) (j : Fin 64) :
    k0_pay6 (F := Ideal) x0 x1 x2 x3 x4 x5 x6 x7 (ix2 r j)
      = Cert.Elbo.lat (tileParams x2 x3 x4 x5 x6 x7 x8 x9 x10 x11) (Cert.Elbo.rowsOf x0 r) (Cert.Elbo.rowsOf x1 r) j := by
  unfold k0_pay6
  refine (congrArg₂ (· + ·) (congrArg₂ (· + ·)
    (matmul_plain_apply dot_S1024x1024_S1024x64_S1024x64_1_0_0_1_n_n rfl rfl rfl rfl rfl rfl none _ _ r j)
    (broadcastTo_1b_ab_apply _ broadcasts_S1x64_S1024x64 r j))
    (congrArg₂ (· * ·) (congrArg Ideal.sqrt (pay5_apply x0 x2 x3 x4 x5 x6 x7 x8 x9 x10 x11 r j)) rfl)).trans ?_
  rw [shapeCast_self, shapeCast_self]
  unfold Cert.Elbo.lat Cert.Elbo.mu
  refine congrArg₂ (· + ·) (congrArg₂ (· + ·) (Finset.sum_congr rfl fun k _ => ?_) rfl) rfl
  rw [pay4_apply x0 x2 x3 x4 x5 x6 x7 x8 x9 x10 x11 r k]
  rfl

/-- The sample narrowed to sixteen bits is the sample. -/
theorem pay7_apply (r : Fin 1024) (j : Fin 64) :
    k0_pay7 (F := Ideal) x0 x1 x2 x3 x4 x5 x6 x7 (ix2 r j)
      = Cert.Elbo.lat (tileParams x2 x3 x4 x5 x6 x7 x8 x9 x10 x11) (Cert.Elbo.rowsOf x0 r) (Cert.Elbo.rowsOf x1 r) j :=
  pay6_apply x0 x1 x2 x3 x4 x5 x6 x7 x8 x9 x10 x11 r j

/-- The decoder's pixel probabilities, from a sample block whose row `r` is the specification's sample: the decoder's
    hidden layer (product, bias, `tanh`) and the output layer (product, bias, `logistic`). -/
theorem pay8_apply (v33 : FVec Ideal S1024x64 .bf16) (r : Fin 1024)
    (h33 : ∀ j, v33 (ix2 r j)
      = Cert.Elbo.lat (tileParams x2 x3 x4 x5 x6 x7 x8 x9 x10 x11) (Cert.Elbo.rowsOf x0 r) (Cert.Elbo.rowsOf x1 r) j)
    (d : Fin 784) :
    k0_pay8 (F := Ideal) v33 x8 x9 x10 x11 (ix2 r d)
      = Cert.Elbo.prob (tileParams x2 x3 x4 x5 x6 x7 x8 x9 x10 x11) (Cert.Elbo.rowsOf x0 r) (Cert.Elbo.rowsOf x1 r) d := by
  unfold k0_pay8
  refine (congrArg Ideal.logistic (congrArg₂ (· + ·)
    (matmul_plain_apply dot_S1024x1024_S1024x784_S1024x784_1_0_0_1_n_n rfl rfl rfl rfl rfl rfl none _ _ r d)
    (broadcastTo_1b_ab_apply _ broadcasts_S1x784_S1024x784 r d))).trans ?_
  unfold Cert.Elbo.prob
  refine congrArg Ideal.logistic (congrArg₂ (· + ·) (Finset.sum_congr rfl fun k _ => ?_) ?_)
  · refine congrArg₂ (· * ·) ?_ ?_
    · refine (congrArg Ideal.tanh (congrArg₂ (· + ·)
        (matmul_plain_apply dot_S1024x64_S64x1024_S1024x1024_1_0_0_1_n_n rfl rfl rfl rfl rfl rfl none _ _ r k)
        (broadcastTo_1b_ab_apply _ broadcasts_S1x1024_S1024x1024 r k))).trans ?_
      unfold Cert.Elbo.hdec
      refine congrArg Ideal.tanh (congrArg₂ (· + ·) (Finset.sum_congr rfl fun j _ => ?_) ?_)
      · rw [h33 j, shapeCast_self]
        rfl
      · rw [shapeCast_self]
        rfl
    · rw [shapeCast_self]
      rfl
  · rw [shapeCast_self]
    rfl

/-- `log q` of a row, from a variance block whose row `r` is the specification's variance: three sums along the row's
    lanes, kept as one-column blocks. -/
theorem pay9_apply (v29 : FVec Ideal S1024x64 .f32) (r : Fin 1024)
    (h29 : ∀ j, v29 (ix2 r j) = Cert.Elbo.sig (tileParams x2 x3 x4 x5 x6 x7 x8 x9 x10 x11) (Cert.Elbo.rowsOf x0 r) j) :
    k0_pay9 (F := Ideal) x1 v29 (ix2 r 0)
      = Cert.Elbo.logqK (tileParams x2 x3 x4 x5 x6 x7 x8 x9 x10 x11) (Cert.Elbo.rowsOf x0 r) (Cert.Elbo.rowsOf x1 r) := by
  unfold k0_pay9
  refine (congrArg₂ (· - ·)
    (congrArg₂ (· * ·) rfl (congrArg₂ (· + ·) rfl
      ((shapeCast_a_a1_apply _ shapeCasts_S1024_S1024x1 r 0).trans (laneSum_apply _ _ _ _ _ r))))
    (congrArg₂ (· * ·)
      (congrArg₂ (· * ·) rfl
        ((shapeCast_a_a1_apply _ shapeCasts_S1024_S1024x1 r 0).trans (laneSum_apply _ _ _ _ _ r)))
      ((shapeCast_a_a1_apply _ shapeCasts_S1024_S1024x1 r 0).trans (laneSum_apply _ _ _ _ _ r)))).trans ?_
  unfold Cert.Elbo.logqK
  refine congrArg₂ (· - ·)
    (congrArg₂ (· * ·) rfl (congrArg₂ (· + ·) rfl (Finset.sum_congr rfl fun j _ => ?_)))
    (congrArg₂ (· * ·) (congrArg₂ (· * ·) rfl (Finset.sum_congr rfl fun j _ => ?_))
      (Finset.sum_congr rfl fun j _ => ?_))
  · exact congrArg Ideal.log (h29 j)
  · exact congrArg₂ (· * ·) (h29 j) rfl
  · exact h29 j

/-- `log p(z)` of a row, from a sample block whose row `r` is the specification's sample: one sum of squares along the
    row's lanes. -/
theorem pay10_apply (v32 : FVec Ideal S1024x64 .f32) (r : Fin 1024)
    (h32 : ∀ j, v32 (ix2 r j)
      = Cert.Elbo.lat (tileParams x2 x3 x4 x5 x6 x7 x8 x9 x10 x11) (Cert.Elbo.rowsOf x0 r) (Cert.Elbo.rowsOf x1 r) j) :
    k0_pay10 (F := Ideal) v32 (ix2 r 0)
      = Cert.Elbo.logpzK (tileParams x2 x3 x4 x5 x6 x7 x8 x9 x10 x11) (Cert.Elbo.rowsOf x0 r) (Cert.Elbo.rowsOf x1 r) := by
  unfold k0_pay10
  refine (congrArg₂ (· - ·) rfl (congrArg₂ (· * ·) (congrArg₂ (· * ·) rfl
    ((shapeCast_a_a1_apply _ shapeCasts_S1024_S1024x1 r 0).trans (laneSum_apply _ _ _ _ _ r))) rfl)).trans ?_
  unfold Cert.Elbo.logpzK
  refine congrArg₂ (· - ·) rfl (congrArg₂ (· * ·) (congrArg₂ (· * ·) rfl (Finset.sum_congr rfl fun j _ => ?_)) rfl)
  exact congrArg₂ (· * ·) (h32 j) (h32 j)

/-- The new running total, from blocks whose rows are the specification's probabilities, `log q` and `log p(z)`: each
    row's Bernoulli log-likelihood summed along its lanes, the three parts added, the rows summed, and the sum added to
    the old total. -/
theorem pay1_apply (v50 : FVec Ideal S1024x784 .f32) (v67 v76 : FVec Ideal S1024x1 .f32) (acc : Vec Ideal S1x1 .f32)
    (h50 : ∀ r d, v50 (ix2 r d)
      = Cert.Elbo.prob (tileParams x2 x3 x4 x5 x6 x7 x8 x9 x10 x11) (Cert.Elbo.rowsOf x0 r) (Cert.Elbo.rowsOf x1 r) d)
    (h67 : ∀ r, v67 (ix2 r 0)
      = Cert.Elbo.logqK (tileParams x2 x3 x4 x5 x6 x7 x8 x9 x10 x11) (Cert.Elbo.rowsOf x0 r) (Cert.Elbo.rowsOf x1 r))
    (h76 : ∀ r, v76 (ix2 r 0)
      = Cert.Elbo.logpzK (tileParams x2 x3 x4 x5 x6 x7 x8 x9 x10 x11) (Cert.Elbo.rowsOf x0 r) (Cert.Elbo.rowsOf x1 r)) :
    k0_pay1 (F := Ideal) x0 v50 v67 v76 acc (ix2 0 0)
      = acc (ix2 0 0) + ∑ r : Fin 1024,
          Cert.Elbo.rowK (tileParams x2 x3 x4 x5 x6 x7 x8 x9 x10 x11) (Cert.Elbo.rowsOf x0 r) (Cert.Elbo.rowsOf x1 r) := by
  unfold k0_pay1
  refine (congrFun (shapeCast_self _ shapeCasts_S1x1_S1x1) (ix2 0 0)).trans ?_
  refine (congrArg₂ (· + ·) rfl
    ((shapeCast_a_a1_apply _ shapeCasts_S1_S1x1 0 0).trans (rowSum_apply _ _ _ _ _ 0))).trans ?_
  refine congrArg₂ (· + ·) rfl (Finset.sum_congr rfl fun r _ => ?_)
  unfold Cert.Elbo.rowK
  refine congrArg₂ (· + ·)
    (congrArg₂ (· + ·) (congrArg₂ (· - ·) Ideal.ofBits_zero_f32 (h67 r)) (h76 r)) ?_
  refine ((shapeCast_a_a1_apply _ shapeCasts_S1024_S1024x1 r 0).trans (laneSum_apply _ _ _ _ _ r)).trans ?_
  refine Finset.sum_congr rfl fun d _ => ?_
  unfold Cert.Elbo.bern
  exact congrArg₂ (· + ·)
    (congrArg₂ (· * ·) rfl (congrArg Ideal.log (h50 r d)))
    (congrArg₂ (· * ·) rfl (congrArg Ideal.log (congrArg₂ (· - ·) rfl (h50 r d))))

end Payloads

/-! ## The three values the run reads -/

/-- One grid point's new running total is the old one plus the sum, over the tile's 1024 rows, of the row's
    contribution in the first arrangement. -/
theorem tileStep_apply
    (x0 : Vec Ideal S1024x784 .f32) (x1 : Vec Ideal S1024x64 .f32) (x2 : Vec Ideal S784x1024 .bf16) (x3 : Vec Ideal S1x1024 .f32)
    (x4 : Vec Ideal S1024x64 .bf16) (x5 : Vec Ideal S1x64 .f32) (x6 : Vec Ideal S1024x64 .bf16) (x7 : Vec Ideal S1x64 .f32)
    (x8 : Vec Ideal S64x1024 .bf16) (x9 : Vec Ideal S1x1024 .f32) (x10 : Vec Ideal S1024x784 .bf16) (x11 : Vec Ideal S1x784 .f32)
    (acc : Vec Ideal S1x1 .f32) :
    tileStep (F := Ideal) x0 x1 x2 x3 x4 x5 x6 x7 x8 x9 x10 x11 acc (ix2 0 0)
      = acc (ix2 0 0) + ∑ r : Fin 1024, Cert.Elbo.rowK (tileParams x2 x3 x4 x5 x6 x7 x8 x9 x10 x11) (Cert.Elbo.rowsOf x0 r) (Cert.Elbo.rowsOf x1 r) := by
  unfold tileStep
  exact pay1_apply x0 x1 x2 x3 x4 x5 x6 x7 x8 x9 x10 x11 _ _ _ acc
    (fun r d => pay8_apply x0 x1 x2 x3 x4 x5 x6 x7 x8 x9 x10 x11 _ r
      (fun j => pay7_apply x0 x1 x2 x3 x4 x5 x6 x7 x8 x9 x10 x11 r j) d)
    (fun r => pay9_apply x0 x1 x2 x3 x4 x5 x6 x7 x8 x9 x10 x11 _ r
      (fun j => pay5_apply x0 x2 x3 x4 x5 x6 x7 x8 x9 x10 x11 r j))
    (fun r => pay10_apply x0 x1 x2 x3 x4 x5 x6 x7 x8 x9 x10 x11 _ r
      (fun j => pay6_apply x0 x1 x2 x3 x4 x5 x6 x7 x8 x9 x10 x11 r j))

/-- The last grid point's output: the running total divided by the batch size. -/
theorem pay2_apply (v99 : Vec Ideal S1x1 .f32) :
    k0_pay2 (F := Ideal) v99 (ix2 0 0) = Ideal.div (v99 (ix2 0 0)) Cert.Elbo.cBatch := by
  unfold k0_pay2
  rfl

/-- The first grid point's initial running total is zero. -/
theorem pay3_apply : k0_pay3 (F := Ideal) (ix2 0 0) = 0 := by
  unfold k0_pay3
  exact (congrFun (shapeCast_self _ shapeCasts_S1x1_S1x1) (ix2 0 0)).trans Ideal.ofBits_zero_f32

end Cert.KernelIdeal.Tile

end
-- ==== Proof.KernelBlocks.lean ====
import proofs.«142983_j31499290149445_2_alg».proof.Proof.Gen.KernelIdeal.Frame
import proofs.«142983_j31499290149445_2_alg».proof.Proof.KernelTile
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

/-!
# The window blocks, read back as the argument arrays

Before the region the host transposes each of the five weight matrices (and narrows it to the short format, which
changes nothing on the extended reals) and reshapes each of the five bias vectors to a one-row matrix. The region's
windows 2 to 11 stage these ten arrays whole, block `(0, 0)` at every grid point; windows 0 and 1 stage the pixel
and noise arrays in tiles of 1024 rows, block `(t, 0)` at point `t`.

So an entry of a weight block is an entry of a host value, which is an entry of an argument array: for a matrix at
the swapped coordinates (the host's transposition undoes the one `tileParams` reads through), for a bias at the
vector's coordinate. An entry `(r, d)` of the pixel or noise tile at point `t` is entry `(1024 t + r, d)` of the
argument array. Each step is stated at explicit coordinates: first the host values as terms over the argument
arrays and those terms at an index, then the windows' index maps over the grid, then each block at an index, and
last the three statements: the weights any point holds are those of the arrays, and a tile's rows are the batch's.
-/

noncomputable section
open Idealize.ShloMosaic Idealize.ShloMosaic.TcCoe Idealize.SL.Sem
open Idealize.ShloMosaic.Pipeline (Dat)
namespace Cert.KernelIdeal.Blocks
open Cert.KernelIdeal Cert.KernelIdeal.Gen Cert.KernelIdeal.Tile
variable (m : (ℓ : Loc nD τ sig) → Buf (Elt Ideal) ℓ)

open Idealize.ShloMosaic.StableHlo Idealize.ShloMosaic.ValueIdx

/-! ## The staged host values, as terms over the argument arrays -/

/-- The array window 2 stages: the first encoder matrix, transposed. -/
theorem V_v1 (c : Dev nD) : V m c main_v1
    = (truncf (F := Ideal) .bf16 (transpose S784x1024 [1, 0] (m ((c : Thread nD τ).loc main_arg2)) transposes_S1024x784_S784x1024_1_0) bitsLt_bf16_f32 :
        FVec Ideal S784x1024 .bf16) := by
  show StableHlo.after hostOps0 (fun b => m (c, b)) (Proc.devRef .tc main_v1) = _
  after_results

/-- The array window 4 stages: the mean's matrix, transposed. -/
theorem V_v3 (c : Dev nD) : V m c main_v3
    = (truncf (F := Ideal) .bf16 (transpose S1024x64 [1, 0] (m ((c : Thread nD τ).loc main_arg4)) transposes_S64x1024_S1024x64_1_0) bitsLt_bf16_f32 :
        FVec Ideal S1024x64 .bf16) := by
  show StableHlo.after hostOps0 (fun b => m (c, b)) (Proc.devRef .tc main_v3) = _
  after_results

/-- The array window 6 stages: the log-variance's matrix, transposed. -/
theorem V_v5 (c : Dev nD) : V m c main_v5
    = (truncf (F := Ideal) .bf16 (transpose S1024x64 [1, 0] (m ((c : Thread nD τ).loc main_arg6)) transposes_S64x1024_S1024x64_1_0) bitsLt_bf16_f32 :
        FVec Ideal S1024x64 .bf16) := by
  show StableHlo.after hostOps0 (fun b => m (c, b)) (Proc.devRef .tc main_v5) = _
  after_results

/-- The array window 8 stages: the first decoder matrix, transposed. -/
theorem V_v7 (c : Dev nD) : V m c main_v7
    = (truncf (F := Ideal) .bf16 (transpose S64x1024 [1, 0] (m ((c : Thread nD τ).loc main_arg8)) transposes_S1024x64_S64x1024_1_0) bitsLt_bf16_f32 :
        FVec Ideal S64x1024 .bf16) := by
  show StableHlo.after hostOps0 (fun b => m (c, b)) (Proc.devRef .tc main_v7) = _
  after_results

/-- The array window 10 stages: the second decoder matrix, transposed. -/
theorem V_v9 (c : Dev nD) : V m c main_v9
    = (truncf (F := Ideal) .bf16 (transpose S1024x784 [1, 0] (m ((c : Thread nD τ).loc main_arg10)) transposes_S784x1024_S1024x784_1_0) bitsLt_bf16_f32 :
        FVec Ideal S1024x784 .bf16) := by
  show StableHlo.after hostOps0 (fun b => m (c, b)) (Proc.devRef .tc main_v9) = _
  after_results

/-- The array window 3 stages: the first encoder bias, as a one-row matrix. -/
theorem V_v10 (c : Dev nD) : V m c main_v10
    = (shapeCast S1x1024 (m ((c : Thread nD τ).loc main_arg3)) shapeCasts_S1024_S1x1024 : S1x1024.Idx → EReal) := by
  show StableHlo.after hostOps0 (fun b => m (c, b)) (Proc.devRef .tc main_v10) = _
  after_results
  rfl

/-- The array window 5 stages: the mean's bias, as a one-row matrix. -/
theorem V_v11 (c : Dev nD) : V m c main_v11
    = (shapeCast S1x64 (m ((c : Thread nD τ).loc main_arg5)) shapeCasts_S64_S1x64 : S1x64.Idx → EReal) := by
  show StableHlo.after hostOps0 (fun b => m (c, b)) (Proc.devRef .tc main_v11) = _
  after_results
  rfl

/-- The array window 7 stages: the log-variance's bias, as a one-row matrix. -/
theorem V_v12 (c : Dev nD) : V m c main_v12
    = (shapeCast S1x64 (m ((c : Thread nD τ).loc main_arg7)) shapeCasts_S64_S1x64 : S1x64.Idx → EReal) := by
  show StableHlo.after hostOps0 (fun b => m (c, b)) (Proc.devRef .tc main_v12) = _
  after_results
  rfl

/-- The array window 9 stages: the first decoder bias, as a one-row matrix. -/
theorem V_v13 (c : Dev nD) : V m c main_v13
    = (shapeCast S1x1024 (m ((c : Thread nD τ).loc main_arg9)) shapeCasts_S1024_S1x1024 : S1x1024.Idx → EReal) := by
  show StableHlo.after hostOps0 (fun b => m (c, b)) (Proc.devRef .tc main_v13) = _
  after_results
  rfl

/-- The array window 11 stages: the second decoder bias, as a one-row matrix. -/
theorem V_v14 (c : Dev nD) : V m c main_v14
    = (shapeCast S1x784 (m ((c : Thread nD τ).loc main_arg11)) shapeCasts_S784_S1x784 : S1x784.Idx → EReal) := by
  show StableHlo.after hostOps0 (fun b => m (c, b)) (Proc.devRef .tc main_v14) = _
  after_results
  rfl

/-! ## The host values at an index

A transposed matrix at `(i, j)` is the argument at `(j, i)`; a one-row matrix at `(0, i)` is the vector at `i`. -/

theorem V_v1_apply (c : Dev nD) (i : Fin 784) (j : Fin 1024) :
    (V m c main_v1 : Vec Ideal S784x1024 .bf16) (ix2 i j) = ((m ((c : Thread nD τ).loc main_arg2)) : Vec Ideal S1024x784 .f32) (ix2 j i) :=
  (congrFun (V_v1 m c) (ix2 i j)).trans
    (transpose_apply [1, 0] _ transposes_S1024x784_S784x1024_1_0 (ix2 i j) (ix2 j i)
      (fun b => match b with | ⟨0, _⟩ => rfl | ⟨1, _⟩ => rfl))

theorem V_v3_apply (c : Dev nD) (i : Fin 1024) (j : Fin 64) :
    (V m c main_v3 : Vec Ideal S1024x64 .bf16) (ix2 i j) = ((m ((c : Thread nD τ).loc main_arg4)) : Vec Ideal S64x1024 .f32) (ix2 j i) :=
  (congrFun (V_v3 m c) (ix2 i j)).trans
    (transpose_apply [1, 0] _ transposes_S64x1024_S1024x64_1_0 (ix2 i j) (ix2 j i)
      (fun b => match b with | ⟨0, _⟩ => rfl | ⟨1, _⟩ => rfl))

theorem V_v5_apply (c : Dev nD) (i : Fin 1024) (j : Fin 64) :
    (V m c main_v5 : Vec Ideal S1024x64 .bf16) (ix2 i j) = ((m ((c : Thread nD τ).loc main_arg6)) : Vec Ideal S64x1024 .f32) (ix2 j i) :=
  (congrFun (V_v5 m c) (ix2 i j)).trans
    (transpose_apply [1, 0] _ transposes_S64x1024_S1024x64_1_0 (ix2 i j) (ix2 j i)
      (fun b => match b with | ⟨0, _⟩ => rfl | ⟨1, _⟩ => rfl))

theorem V_v7_apply (c : Dev nD) (i : Fin 64) (j : Fin 1024) :
    (V m c main_v7 : Vec Ideal S64x1024 .bf16) (ix2 i j) = ((m ((c : Thread nD τ).loc main_arg8)) : Vec Ideal S1024x64 .f32) (ix2 j i) :=
  (congrFun (V_v7 m c) (ix2 i j)).trans
    (transpose_apply [1, 0] _ transposes_S1024x64_S64x1024_1_0 (ix2 i j) (ix2 j i)
      (fun b => match b with | ⟨0, _⟩ => rfl | ⟨1, _⟩ => rfl))

theorem V_v9_apply (c : Dev nD) (i : Fin 1024) (j : Fin 784) :
    (V m c main_v9 : Vec Ideal S1024x784 .bf16) (ix2 i j) = ((m ((c : Thread nD τ).loc main_arg10)) : Vec Ideal S784x1024 .f32) (ix2 j i) :=
  (congrFun (V_v9 m c) (ix2 i j)).trans
    (transpose_apply [1, 0] _ transposes_S784x1024_S1024x784_1_0 (ix2 i j) (ix2 j i)
      (fun b => match b with | ⟨0, _⟩ => rfl | ⟨1, _⟩ => rfl))

theorem V_v10_apply (c : Dev nD) (u : Fin 1) (i : Fin 1024) :
    (V m c main_v10 : Vec Ideal S1x1024 .f32) (ix2 u i) = ((m ((c : Thread nD τ).loc main_arg3)) : Vec Ideal S1024 .f32) (ix1 i) :=
  (congrFun (V_v10 m c) (ix2 u i)).trans (shapeCast_a_1a_apply _ shapeCasts_S1024_S1x1024 u i)

theorem V_v11_apply (c : Dev nD) (u : Fin 1) (i : Fin 64) :
    (V m c main_v11 : Vec Ideal S1x64 .f32) (ix2 u i) = ((m ((c : Thread nD τ).loc main_arg5)) : Vec Ideal S64 .f32) (ix1 i) :=
  (congrFun (V_v11 m c) (ix2 u i)).trans (shapeCast_a_1a_apply _ shapeCasts_S64_S1x64 u i)

theorem V_v12_apply (c : Dev nD) (u : Fin 1) (i : Fin 64) :
    (V m c main_v12 : Vec Ideal S1x64 .f32) (ix2 u i) = ((m ((c : Thread nD τ).loc main_arg7)) : Vec Ideal S64 .f32) (ix1 i) :=
  (congrFun (V_v12 m c) (ix2 u i)).trans (shapeCast_a_1a_apply _ shapeCasts_S64_S1x64 u i)

theorem V_v13_apply (c : Dev nD) (u : Fin 1) (i : Fin 1024) :
    (V m c main_v13 : Vec Ideal S1x1024 .f32) (ix2 u i) = ((m ((c : Thread nD τ).loc main_arg9)) : Vec Ideal S1024 .f32) (ix1 i) :=
  (congrFun (V_v13 m c) (ix2 u i)).trans (shapeCast_a_1a_apply _ shapeCasts_S1024_S1x1024 u i)

theorem V_v14_apply (c : Dev nD) (u : Fin 1) (i : Fin 784) :
    (V m c main_v14 : Vec Ideal S1x784 .f32) (ix2 u i) = ((m ((c : Thread nD τ).loc main_arg11)) : Vec Ideal S784 .f32) (ix1 i) :=
  (congrFun (V_v14 m c) (ix2 u i)).trans (shapeCast_a_1a_apply _ shapeCasts_S784_S1x784 u i)

/-! ## The windows' index maps over the grid

Windows 0 and 1 take block `(t, 0)` at point `t`; windows 2 to 11 take block `(0, 0)` at every point. Each is a
statement about 64 points, decided. -/

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = 0 ∧ win0_2.index t 1 = 0 := by decide +kernel
theorem index_3 : ∀ t : Fin grid0.N, win0_3.index t 0 = 0 ∧ win0_3.index t 1 = 0 := by decide +kernel
theorem index_4 : ∀ t : Fin grid0.N, win0_4.index t 0 = 0 ∧ win0_4.index t 1 = 0 := by decide +kernel
theorem index_5 : ∀ t : Fin grid0.N, win0_5.index t 0 = 0 ∧ win0_5.index t 1 = 0 := by decide +kernel
theorem index_6 : ∀ t : Fin grid0.N, win0_6.index t 0 = 0 ∧ win0_6.index t 1 = 0 := by decide +kernel
theorem index_7 : ∀ t : Fin grid0.N, win0_7.index t 0 = 0 ∧ win0_7.index t 1 = 0 := by decide +kernel
theorem index_8 : ∀ t : Fin grid0.N, win0_8.index t 0 = 0 ∧ win0_8.index t 1 = 0 := by decide +kernel
theorem index_9 : ∀ t : Fin grid0.N, win0_9.index t 0 = 0 ∧ win0_9.index t 1 = 0 := by decide +kernel
theorem index_10 : ∀ t : Fin grid0.N, win0_10.index t 0 = 0 ∧ win0_10.index t 1 = 0 := by decide +kernel
theorem index_11 : ∀ t : Fin grid0.N, win0_11.index t 0 = 0 ∧ win0_11.index t 1 = 0 := by decide +kernel

/-! ## The blocks at an index

A block's coordinate in its array is the block index times the block's extent plus the coordinate inside the block. -/

/-- The pixel tile at point `t`, entry `(r, d)`: the argument's entry `(1024 t + r, d)`. -/
theorem blk0_apply (c : Dev nD) (t : Fin cfg0.N) (r : Fin 1024) (d : Fin 784) (h : 1024 * t.val + r.val < 65536) :
    (iblk m c 0 t : Vec Ideal S1024x784 .f32) (ix2 r d)
      = ((m ((c : Thread nD τ).loc main_arg0)) : Vec Ideal S65536x784 .f32) (ix2 ⟨1024 * t.val + r.val, h⟩ d) := by
  have hi := index_0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 1024 + 1 * r.val = 1024 * t.val + r.val; rw [hi.1]; omega
  | ⟨1, _⟩ => show win0_0.index t 1 * 784 + 1 * d.val = d.val; rw [hi.2]; omega

/-- The noise tile at point `t`, entry `(r, j)`: the argument's entry `(1024 t + r, j)`. -/
theorem blk1_apply (c : Dev nD) (t : Fin cfg0.N) (r : Fin 1024) (j : Fin 64) (h : 1024 * t.val + r.val < 65536) :
    (iblk m c 1 t : Vec Ideal S1024x64 .f32) (ix2 r j)
      = ((m ((c : Thread nD τ).loc main_arg1)) : Vec Ideal S65536x64 .f32) (ix2 ⟨1024 * t.val + r.val, h⟩ j) := by
  have hi := index_1 t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1024 + 1 * r.val = 1024 * t.val + r.val; rw [hi.1]; omega
  | ⟨1, _⟩ => show win0_1.index t 1 * 64 + 1 * j.val = j.val; rw [hi.2]; omega

/-- Window 2's block is its whole array (the first encoder matrix). -/
theorem blk2_apply (c : Dev nD) (t : Fin cfg0.N) (i : Fin 784) (j : Fin 1024) :
    (iblk m c 2 t : Vec Ideal S784x1024 .bf16) (ix2 i j) = (V m c main_v1 : Vec Ideal S784x1024 .bf16) (ix2 i j) := by
  have hi := index_2 t
  unfold iblk
  rw [View.read_apply]
  show V m c main_v1 _ = V m c main_v1 _
  refine congrArg (V m c main_v1) (funext fun a => Fin.ext ?_)
  match a with
  | ⟨0, _⟩ => show win0_2.index t 0 * 784 + 1 * i.val = i.val; rw [hi.1]; omega
  | ⟨1, _⟩ => show win0_2.index t 1 * 1024 + 1 * j.val = j.val; rw [hi.2]; omega

/-- Window 3's block is its whole array (the first encoder bias). -/
theorem blk3_apply (c : Dev nD) (t : Fin cfg0.N) (i : Fin 1) (j : Fin 1024) :
    (iblk m c 3 t : Vec Ideal S1x1024 .f32) (ix2 i j) = (V m c main_v10 : Vec Ideal S1x1024 .f32) (ix2 i j) := by
  have hi := index_3 t
  unfold iblk
  rw [View.read_apply]
  show V m c main_v10 _ = V m c main_v10 _
  refine congrArg (V m c main_v10) (funext fun a => Fin.ext ?_)
  match a with
  | ⟨0, _⟩ => show win0_3.index t 0 * 1 + 1 * i.val = i.val; rw [hi.1]; omega
  | ⟨1, _⟩ => show win0_3.index t 1 * 1024 + 1 * j.val = j.val; rw [hi.2]; omega

/-- Window 4's block is its whole array (the mean's matrix). -/
theorem blk4_apply (c : Dev nD) (t : Fin cfg0.N) (i : Fin 1024) (j : Fin 64) :
    (iblk m c 4 t : Vec Ideal S1024x64 .bf16) (ix2 i j) = (V m c main_v3 : Vec Ideal S1024x64 .bf16) (ix2 i j) := by
  have hi := index_4 t
  unfold iblk
  rw [View.read_apply]
  show V m c main_v3 _ = V m c main_v3 _
  refine congrArg (V m c main_v3) (funext fun a => Fin.ext ?_)
  match a with
  | ⟨0, _⟩ => show win0_4.index t 0 * 1024 + 1 * i.val = i.val; rw [hi.1]; omega
  | ⟨1, _⟩ => show win0_4.index t 1 * 64 + 1 * j.val = j.val; rw [hi.2]; omega

/-- Window 5's block is its whole array (the mean's bias). -/
theorem blk5_apply (c : Dev nD) (t : Fin cfg0.N) (i : Fin 1) (j : Fin 64) :
    (iblk m c 5 t : Vec Ideal S1x64 .f32) (ix2 i j) = (V m c main_v11 : Vec Ideal S1x64 .f32) (ix2 i j) := by
  have hi := index_5 t
  unfold iblk
  rw [View.read_apply]
  show V m c main_v11 _ = V m c main_v11 _
  refine congrArg (V m c main_v11) (funext fun a => Fin.ext ?_)
  match a with
  | ⟨0, _⟩ => show win0_5.index t 0 * 1 + 1 * i.val = i.val; rw [hi.1]; omega
  | ⟨1, _⟩ => show win0_5.index t 1 * 64 + 1 * j.val = j.val; rw [hi.2]; omega

/-- Window 6's block is its whole array (the log-variance's matrix). -/
theorem blk6_apply (c : Dev nD) (t : Fin cfg0.N) (i : Fin 1024) (j : Fin 64) :
    (iblk m c 6 t : Vec Ideal S1024x64 .bf16) (ix2 i j) = (V m c main_v5 : Vec Ideal S1024x64 .bf16) (ix2 i j) := by
  have hi := index_6 t
  unfold iblk
  rw [View.read_apply]
  show V m c main_v5 _ = V m c main_v5 _
  refine congrArg (V m c main_v5) (funext fun a => Fin.ext ?_)
  match a with
  | ⟨0, _⟩ => show win0_6.index t 0 * 1024 + 1 * i.val = i.val; rw [hi.1]; omega
  | ⟨1, _⟩ => show win0_6.index t 1 * 64 + 1 * j.val = j.val; rw [hi.2]; omega

/-- Window 7's block is its whole array (the log-variance's bias). -/
theorem blk7_apply (c : Dev nD) (t : Fin cfg0.N) (i : Fin 1) (j : Fin 64) :
    (iblk m c 7 t : Vec Ideal S1x64 .f32) (ix2 i j) = (V m c main_v12 : Vec Ideal S1x64 .f32) (ix2 i j) := by
  have hi := index_7 t
  unfold iblk
  rw [View.read_apply]
  show V m c main_v12 _ = V m c main_v12 _
  refine congrArg (V m c main_v12) (funext fun a => Fin.ext ?_)
  match a with
  | ⟨0, _⟩ => show win0_7.index t 0 * 1 + 1 * i.val = i.val; rw [hi.1]; omega
  | ⟨1, _⟩ => show win0_7.index t 1 * 64 + 1 * j.val = j.val; rw [hi.2]; omega

/-- Window 8's block is its whole array (the first decoder matrix). -/
theorem blk8_apply (c : Dev nD) (t : Fin cfg0.N) (i : Fin 64) (j : Fin 1024) :
    (iblk m c 8 t : Vec Ideal S64x1024 .bf16) (ix2 i j) = (V m c main_v7 : Vec Ideal S64x1024 .bf16) (ix2 i j) := by
  have hi := index_8 t
  unfold iblk
  rw [View.read_apply]
  show V m c main_v7 _ = V m c main_v7 _
  refine congrArg (V m c main_v7) (funext fun a => Fin.ext ?_)
  match a with
  | ⟨0, _⟩ => show win0_8.index t 0 * 64 + 1 * i.val = i.val; rw [hi.1]; omega
  | ⟨1, _⟩ => show win0_8.index t 1 * 1024 + 1 * j.val = j.val; rw [hi.2]; omega

/-- Window 9's block is its whole array (the first decoder bias). -/
theorem blk9_apply (c : Dev nD) (t : Fin cfg0.N) (i : Fin 1) (j : Fin 1024) :
    (iblk m c 9 t : Vec Ideal S1x1024 .f32) (ix2 i j) = (V m c main_v13 : Vec Ideal S1x1024 .f32) (ix2 i j) := by
  have hi := index_9 t
  unfold iblk
  rw [View.read_apply]
  show V m c main_v13 _ = V m c main_v13 _
  refine congrArg (V m c main_v13) (funext fun a => Fin.ext ?_)
  match a with
  | ⟨0, _⟩ => show win0_9.index t 0 * 1 + 1 * i.val = i.val; rw [hi.1]; omega
  | ⟨1, _⟩ => show win0_9.index t 1 * 1024 + 1 * j.val = j.val; rw [hi.2]; omega

/-- Window 10's block is its whole array (the second decoder matrix). -/
theorem blk10_apply (c : Dev nD) (t : Fin cfg0.N) (i : Fin 1024) (j : Fin 784) :
    (iblk m c 10 t : Vec Ideal S1024x784 .bf16) (ix2 i j) = (V m c main_v9 : Vec Ideal S1024x784 .bf16) (ix2 i j) := by
  have hi := index_10 t
  unfold iblk
  rw [View.read_apply]
  show V m c main_v9 _ = V m c main_v9 _
  refine congrArg (V m c main_v9) (funext fun a => Fin.ext ?_)
  match a with
  | ⟨0, _⟩ => show win0_10.index t 0 * 1024 + 1 * i.val = i.val; rw [hi.1]; omega
  | ⟨1, _⟩ => show win0_10.index t 1 * 784 + 1 * j.val = j.val; rw [hi.2]; omega

/-- Window 11's block is its whole array (the second decoder bias). -/
theorem blk11_apply (c : Dev nD) (t : Fin cfg0.N) (i : Fin 1) (j : Fin 784) :
    (iblk m c 11 t : Vec Ideal S1x784 .f32) (ix2 i j) = (V m c main_v14 : Vec Ideal S1x784 .f32) (ix2 i j) := by
  have hi := index_11 t
  unfold iblk
  rw [View.read_apply]
  show V m c main_v14 _ = V m c main_v14 _
  refine congrArg (V m c main_v14) (funext fun a => Fin.ext ?_)
  match a with
  | ⟨0, _⟩ => show win0_11.index t 0 * 1 + 1 * i.val = i.val; rw [hi.1]; omega
  | ⟨1, _⟩ => show win0_11.index t 1 * 784 + 1 * j.val = j.val; rw [hi.2]; omega

/-! ## The three statements -/

/-- The weight blocks any point holds, read back as the specification's weights, are those of the argument arrays. -/
theorem params_blocks (c : Dev nD) (t : Fin cfg0.N) :
    tileParams (iblk m c 2 t) (iblk m c 3 t) (iblk m c 4 t) (iblk m c 5 t) (iblk m c 6 t) (iblk m c 7 t)
        (iblk m c 8 t) (iblk m c 9 t) (iblk m c 10 t) (iblk m c 11 t)
      = Cert.Elbo.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  unfold tileParams Cert.Elbo.paramsOf
  rw [Cert.Elbo.Params.mk.injEq]
  refine ⟨funext fun k => funext fun d => ?_, funext fun k => ?_, funext fun j => funext fun k => ?_, funext fun j => ?_,
    funext fun j => funext fun k => ?_, funext fun j => ?_, funext fun k => funext fun j => ?_, funext fun k => ?_,
    funext fun d => funext fun k => ?_, funext fun d => ?_⟩
  · exact (blk2_apply m c t d k).trans (V_v1_apply m c d k)
  · exact (blk3_apply m c t 0 k).trans (V_v10_apply m c 0 k)
  · exact (blk4_apply m c t k j).trans (V_v3_apply m c k j)
  · exact (blk5_apply m c t 0 j).trans (V_v11_apply m c 0 j)
  · exact (blk6_apply m c t k j).trans (V_v5_apply m c k j)
  · exact (blk7_apply m c t 0 j).trans (V_v12_apply m c 0 j)
  · exact (blk8_apply m c t j k).trans (V_v7_apply m c j k)
  · exact (blk9_apply m c t 0 k).trans (V_v13_apply m c 0 k)
  · exact (blk10_apply m c t k d).trans (V_v9_apply m c k d)
  · exact (blk11_apply m c t 0 d).trans (V_v14_apply m c 0 d)

/-- Row `r` of the pixel tile at point `t` is batch row `1024 t + r`. -/
theorem rows_x (c : Dev nD) (t : Fin cfg0.N) (r : Fin 1024) (h : 1024 * t.val + r.val < 65536) :
    Cert.Elbo.rowsOf (iblk m c 0 t) r = Cert.Elbo.rowsOf (m ((c : Thread nD τ).loc main_arg0)) ⟨1024 * t.val + r.val, h⟩ := by
  unfold Cert.Elbo.rowsOf
  funext d
  exact blk0_apply m c t r d h

/-- Row `r` of the noise tile at point `t` is batch row `1024 t + r`. -/
theorem rows_eps (c : Dev nD) (t : Fin cfg0.N) (r : Fin 1024) (h : 1024 * t.val + r.val < 65536) :
    Cert.Elbo.rowsOf (iblk m c 1 t) r = Cert.Elbo.rowsOf (m ((c : Thread nD τ).loc main_arg1)) ⟨1024 * t.val + r.val, h⟩ := by
  unfold Cert.Elbo.rowsOf
  funext j
  exact blk1_apply m c t r j h

end Cert.KernelIdeal.Blocks

end
-- ==== Proof.KernelValue.lean ====
import proofs.«142983_j31499290149445_2_alg».proof.Proof.KernelRun
import proofs.«142983_j31499290149445_2_alg».proof.Proof.KernelTileValue
import proofs.«142983_j31499290149445_2_alg».proof.Proof.KernelBlocks

/-!
# The kernel's result is the bound of the argument arrays

At the extended reals one grid point adds to the running total the sum over its 1024 tile rows of the row's
contribution (`tileStep_apply`); the tile at point `t` holds batch rows `1024 t + r` and every point holds the
same weights (`rows_x`, `rows_eps`, `params_blocks`). So after point `n` the total is the sum of the first
`1024 (n + 1)` rows — an induction on the point, each step joining one tile's rows to the rows before it — and
after the last point it is the sum over the whole batch; the result divides it by the batch size.
-/

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Tile Cert.KernelIdeal.Blocks

/-! ## The running total, at the extended reals -/

variable (m : (ℓ : Loc nD τ sig) → Buf (Elt Ideal) ℓ)

/-- Batch row `x`'s contribution to the bound (zero past the batch). -/
def rowAt (c : Dev nD) (x : ℕ) : EReal :=
  if h : x < 65536 then
    Cert.Elbo.rowK (Cert.Elbo.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
      (Cert.Elbo.rowsOf (m ((c : Thread nD τ).loc main_arg0)) ⟨x, h⟩) (Cert.Elbo.rowsOf (m ((c : Thread nD τ).loc main_arg1)) ⟨x, h⟩)
  else 0

/-- The rows of the tile at point `t` are batch rows `1024 t … 1024 t + 1023`, and every point holds the same weights. -/
theorem tile_sum (c : Dev nD) (t : Fin cfg0.N) :
    (∑ r : Fin 1024, Cert.Elbo.rowK
        (tileParams (iblk m c 2 t) (iblk m c 3 t) (iblk m c 4 t) (iblk m c 5 t) (iblk m c 6 t) (iblk m c 7 t)
          (iblk m c 8 t) (iblk m c 9 t) (iblk m c 10 t) (iblk m c 11 t))
        (Cert.Elbo.rowsOf (iblk m c 0 t) r) (Cert.Elbo.rowsOf (iblk m c 1 t) r))
      = ∑ r ∈ Finset.range 1024, rowAt m c (1024 * t.val + r) := by
  have hN : cfg0.N = 64 := N_0
  rw [params_blocks, ← Fin.sum_univ_eq_sum_range (fun r => rowAt m c (1024 * t.val + r)) 1024]
  refine Finset.sum_congr rfl fun r _ => ?_
  have hb : 1024 * t.val + r.val < 65536 := by have := t.isLt; have := r.isLt; omega
  rw [rows_x m c t r hb, rows_eps m c t r hb]
  unfold rowAt
  rw [dif_pos hb]

/-- After point `n` the running total is the sum of the first `1024 (n + 1)` rows: by induction on the point, one
    tile's rows joined to the rows before it. -/
theorem total_apply (c : Dev nD) : ∀ (n : ℕ) (h : n < cfg0.N),
    total m c n h (ValueIdx.ix2 0 0) = ∑ x ∈ Finset.range (1024 * (n + 1)), rowAt m c x
  | 0, h => by
    show tileStep (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (k0_pay3 (F := Ideal)) (ValueIdx.ix2 0 0) = _
    rw [tileStep_apply, pay3_apply, zero_add, tile_sum m c ⟨0, h⟩]
    refine Finset.sum_congr rfl fun r _ => ?_
    show rowAt m c (1024 * 0 + r) = rowAt m c r
    rw [Nat.mul_zero, Nat.zero_add]
  | n + 1, h => by
    show tileStep (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (total m c n (Nat.lt_of_succ_lt h)) (ValueIdx.ix2 0 0) = _
    rw [tileStep_apply, total_apply c n, tile_sum m c ⟨n + 1, h⟩,
      show 1024 * (n + 1 + 1) = 1024 * (n + 1) + 1024 by ring, Finset.sum_range_add]

/-- So the result is the bound of the twelve argument arrays, rows summed whole. -/
theorem result_apply (c : Dev nD) :
    result m c (ValueIdx.ix2 0 0) = Cert.Elbo.elboKOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show k0_pay2 (F := Ideal) (total m c 63 tLast.isLt) (ValueIdx.ix2 0 0) = _
  rw [pay2_apply, total_apply]
  unfold Cert.Elbo.elboKOf Cert.Elbo.elboK
  refine congrArg (fun s => Ideal.div s Cert.Elbo.cBatch) ?_
  rw [show 1024 * (63 + 1) = 65536 by norm_num, ← Fin.sum_univ_eq_sum_range (fun x => rowAt m c x) 65536]
  refine Finset.sum_congr rfl fun n _ => ?_
  unfold rowAt
  rw [dif_pos n.isLt]

end Cert.KernelIdeal.KValue

end
-- ==== Proof.RefRead.lean ====
import proofs.«142983_j31499290149445_2_alg».proof.Proof.Gen.ReferenceIdeal.Read
import proofs.«142983_j31499290149445_2_alg».proof.Proof.SpecArrays
import Idealize.ShloMosaic.Lib.ValueIdx
import Idealize.ShloMosaic.PureOps.Ideal.Laws

/-!
# The reference's result, read index by index

Each operation of the reference, read at explicit coordinates (a row `n`, a hidden unit `k`, a latent coordinate `j`,
a pixel `d`), is a named quantity of the variational lower bound: the encoder's hidden layer, the posterior's mean,
log-variance and variance, the reparameterised sample, the decoder's hidden layer, the pixel probability (spelt
`1 / (1 + exp (-logit))`, which is the logistic function by definition), the pixel's Bernoulli log-likelihood, and the
two Gaussian log-densities in the arrangement that sums the normaliser per latent coordinate. The lemmas go bottom-up,
one per named quantity; a layout operation (a transposition, a broadcast) only moves the index, a contraction is the
sum over its one contracted coordinate, a reduction is its initial value `0` plus the sum over the reduced
coordinates. The last theorem reads the result as `Cert.Elbo.elboROf` of the twelve argument arrays.
-/

noncomputable section

namespace Cert.ReferenceIdeal.RefValue

open Cert.ReferenceIdeal Cert.ReferenceIdeal.Gen Cert.ReferenceIdeal.Read Cert.Elbo
open Idealize.ShloMosaic Idealize.ShloMosaic.ValueIdx

variable
    (x0 : (⟨S65536x784, .f32⟩ : BufTy).Contents (Elt Ideal)) (x1 : (⟨S65536x64, .f32⟩ : BufTy).Contents (Elt Ideal))
    (x2 : (⟨S1024x784, .f32⟩ : BufTy).Contents (Elt Ideal)) (x3 : (⟨S1024, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (x8 : (⟨S1024x64, .f32⟩ : BufTy).Contents (Elt Ideal)) (x9 : (⟨S1024, .f32⟩ : BufTy).Contents (Elt Ideal))
    (x10 : (⟨S784x1024, .f32⟩ : BufTy).Contents (Elt Ideal)) (x11 : (⟨S784, .f32⟩ : BufTy).Contents (Elt Ideal))

/-- Two literal shapes' indices that agree coordinate by coordinate are equal (rank 2). -/
local macro "idx2" : tactic =>
  `(tactic| exact funext fun a => Fin.ext (by match a with | ⟨0, _⟩ => rfl | ⟨1, _⟩ => rfl))
/-- The same at rank 1. -/
local macro "idx1" : tactic =>
  `(tactic| exact funext fun a => Fin.ext (by match a with | ⟨0, _⟩ => rfl))

local notation "PP" => Cert.Elbo.paramsOf x2 x3 x4 x5 x6 x7 x8 x9 x10 x11

/-! ## Words -/

/-- The word of `1.0` denotes `1`. -/
theorem fone : FloatOps.ofBits (F := Ideal) .f32 0x3F800000#32 = (1 : EReal) := by
  show Ideal.ofBits .f32 0x3F800000#32 = 1
  simp [Ideal.ofBits, Ideal.ieee, -EReal.coe_mul]; norm_num

/-- The word of `+0.0` denotes `0`. -/
theorem fzero : FloatOps.ofBits (F := Ideal) .f32 0x00000000#32 = (0 : EReal) := Ideal.ofBits_zero_f32

/-- A sum over a one-axis index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-! ## The encoder -/

/-- The pixels times the first weights, at a row and a hidden unit. -/
theorem v1_at (n : Fin 65536) (k : Fin 1024) :
    val_main_v1 (F := Ideal) x0 x2 (ix2 n k) = ∑ d : Fin 784, x0 (ix2 n d) * x2 (ix2 k d) := by
  rw [val_main_v1_apply]
  refine Finset.sum_congr rfl fun d _ => ?_
  have e1 : lidx_main_v1 (ix2 n k) d = ix2 n d := by idx2
  have e2 : idx_main_v0 (ridx_main_v1 (ix2 n k) d) = ix2 k d := by idx2
  rw [val_main_v0_apply, e1, e2]

/-- The first bias, broadcast over the rows. -/
theorem v3_at (n : Fin 65536) (k : Fin 1024) :
    val_main_v3 (F := Ideal) x3 (ix2 n k) = x3 (ix1 k) := by
  have e : idx_main_v2 (idx_main_v3 (ix2 n k)) = ix1 k := by idx1
  rw [val_main_v3_apply, val_main_v2_apply, e]

/-- `%5` is the encoder's hidden layer. -/
theorem v5_at (n : Fin 65536) (k : Fin 1024) :
    val_main_v5 (F := Ideal) x0 x2 x3 (ix2 n k) = hid PP (rowsOf x0 n) k := by
  rw [val_main_v5_apply, val_main_v4_apply, v1_at, v3_at]
  rfl

/-- The hidden layer times the mean's weights. -/
theorem v7_at (n : Fin 65536) (j : Fin 64) :
    val_main_v7 (F := Ideal) x0 x2 x3 x4 (ix2 n j) = ∑ k : Fin 1024, hid PP (rowsOf x0 n) k * x4 (ix2 j k) := by
  rw [val_main_v7_apply]
  refine Finset.sum_congr rfl fun k _ => ?_
  have e1 : lidx_main_v7 (ix2 n j) k = ix2 n k := by idx2
  have e2 : idx_main_v6 (ridx_main_v7 (ix2 n j) k) = ix2 j k := by idx2
  rw [val_main_v6_apply, e1, e2, v5_at x0 x2 x3 x4 x5 x6 x7 x8 x9 x10 x11 n k]

/-- The mean's bias, broadcast over the rows. -/
theorem v9_at (n : Fin 65536) (j : Fin 64) :
    val_main_v9 (F := Ideal) x5 (ix2 n j) = x5 (ix1 j) := by
  have e : idx_main_v8 (idx_main_v9 (ix2 n j)) = ix1 j := by idx1
  rw [val_main_v9_apply, val_main_v8_apply, e]

/-- `%10` is the posterior's mean. -/
theorem v10_at (n : Fin 65536) (j : Fin 64) :
    val_main_v10 (F := Ideal) x0 x2 x3 x4 x5 (ix2 n j) = mu PP (rowsOf x0 n) j := by
  rw [val_main_v10_apply, v7_at x0 x2 x3 x4 x5 x6 x7 x8 x9 x10 x11 n j, v9_at]
  rfl

/-- The hidden layer times the log-variance's weights. -/
theorem v12_at (n : Fin 65536) (j : Fin 64) :
    val_main_v12 (F := Ideal) x0 x2 x3 x6 (ix2 n j) = ∑ k : Fin 1024, hid PP (rowsOf x0 n) k * x6 (ix2 j k) := by
  rw [val_main_v12_apply]
  refine Finset.sum_congr rfl fun k _ => ?_
  have e1 : lidx_main_v12 (ix2 n j) k = ix2 n k := by idx2
  have e2 : idx_main_v11 (ridx_main_v12 (ix2 n j) k) = ix2 j k := by idx2
  rw [val_main_v11_apply, e1, e2, v5_at x0 x2 x3 x4 x5 x6 x7 x8 x9 x10 x11 n k]

/-- The log-variance's bias, broadcast over the rows. -/
theorem v14_at (n : Fin 65536) (j : Fin 64) :
    val_main_v14 (F := Ideal) x7 (ix2 n j) = x7 (ix1 j) := by
  have e : idx_main_v13 (idx_main_v14 (ix2 n j)) = ix1 j := by idx1
  rw [val_main_v14_apply, val_main_v13_apply, e]

/-- `%15` is the posterior's log-variance. -/
theorem v15_at (n : Fin 65536) (j : Fin 64) :
    val_main_v15 (F := Ideal) x0 x2 x3 x6 x7 (ix2 n j) = ls PP (rowsOf x0 n) j := by
  rw [val_main_v15_apply, v12_at x0 x2 x3 x4 x5 x6 x7 x8 x9 x10 x11 n j, v14_at]
  rfl

/-- `%16` is the posterior's variance. -/
theorem v16_at (n : Fin 65536) (j : Fin 64) :
    val_main_v16 (F := Ideal) x0 x2 x3 x6 x7 (ix2 n j) = Cert.Elbo.sig PP (rowsOf x0 n) j := by
  rw [val_main_v16_apply, v15_at x0 x2 x3 x4 x5 x6 x7 x8 x9 x10 x11 n j]
  rfl

/-- `%19` is the reparameterised sample. -/
theorem v19_at (n : Fin 65536) (j : Fin 64) :
    val_main_v19 (F := Ideal) x0 x1 x2 x3 x4 x5 x6 x7 (ix2 n j) = lat PP (rowsOf x0 n) (rowsOf x1 n) j := by
  rw [val_main_v19_apply, val_main_v18_apply, val_main_v17_apply, v10_at x0 x2 x3 x4 x5 x6 x7 x8 x9 x10 x11 n j, v16_at x0 x2 x3 x4 x5 x6 x7 x8 x9 x10 x11 n j]
  rfl

/-! ## The decoder -/

/-- The sample times the decoder's first weights. -/
theorem v21_at (n : Fin 65536) (k : Fin 1024) :
    val_main_v21 (F := Ideal) x0 x1 x2 x3 x4 x5 x6 x7 x8 (ix2 n k)
      = ∑ j : Fin 64, lat PP (rowsOf x0 n) (rowsOf x1 n) j * x8 (ix2 k j) := by
  rw [val_main_v21_apply]
  refine Finset.sum_congr rfl fun j _ => ?_
  have e1 : lidx_main_v21 (ix2 n k) j = ix2 n j := by idx2
  have e2 : idx_main_v20 (ridx_main_v21 (ix2 n k) j) = ix2 k j := by idx2
  rw [val_main_v20_apply, e1, e2, v19_at x0 x1 x2 x3 x4 x5 x6 x7 x8 x9 x10 x11 n j]

/-- The decoder's first bias, broadcast over the rows. -/
theorem v23_at (n : Fin 65536) (k : Fin 1024) :
    val_main_v23 (F := Ideal) x9 (ix2 n k) = x9 (ix1 k) := by
  have e : idx_main_v22 (idx_main_v23 (ix2 n k)) = ix1 k := by idx1
  rw [val_main_v23_apply, val_main_v22_apply, e]

/-- `%25` is the decoder's hidden layer. -/
theorem v25_at (n : Fin 65536) (k : Fin 1024) :
    val_main_v25 (F := Ideal) x0 x1 x2 x3 x4 x5 x6 x7 x8 x9 (ix2 n k) = hdec PP (rowsOf x0 n) (rowsOf x1 n) k := by
  rw [val_main_v25_apply, val_main_v24_apply, v21_at x0 x1 x2 x3 x4 x5 x6 x7 x8 x9 x10 x11 n k, v23_at]
  rfl

/-- The decoder's hidden layer times its second weights. -/
theorem v27_at (n : Fin 65536) (d : Fin 784) :
    val_main_v27 (F := Ideal) x0 x1 x2 x3 x4 x5 x6 x7 x8 x9 x10 (ix2 n d)
      = ∑ k : Fin 1024, hdec PP (rowsOf x0 n) (rowsOf x1 n) k * x10 (ix2 d k) := by
  rw [val_main_v27_apply]
  refine Finset.sum_congr rfl fun k _ => ?_
  have e1 : lidx_main_v27 (ix2 n d) k = ix2 n k := by idx2
  have e2 : idx_main_v26 (ridx_main_v27 (ix2 n d) k) = ix2 d k := by idx2
  rw [val_main_v26_apply, e1, e2, v25_at x0 x1 x2 x3 x4 x5 x6 x7 x8 x9 x10 x11 n k]

/-- The decoder's second bias, broadcast over the rows. -/
theorem v29_at (n : Fin 65536) (d : Fin 784) :
    val_main_v29 (F := Ideal) x11 (ix2 n d) = x11 (ix1 d) := by
  have e : idx_main_v28 (idx_main_v29 (ix2 n d)) = ix1 d := by idx1
  rw [val_main_v29_apply, val_main_v28_apply, e]

/-- `%36`, spelt `1 / (1 + exp (-logit))`, is the pixel's probability. -/
theorem v36_at (n : Fin 65536) (d : Fin 784) :
    val_main_v36 (F := Ideal) x0 x1 x2 x3 x4 x5 x6 x7 x8 x9 x10 x11 (ix2 n d)
      = prob PP (rowsOf x0 n) (rowsOf x1 n) d := by
  rw [val_main_v36_apply, val_main_v35_apply, val_main_cst_0_apply, val_main_v34_apply, val_main_v33_apply,
    val_main_cst_apply, val_main_v32_apply, val_main_v31_apply, val_main_v30_apply, v27_at x0 x1 x2 x3 x4 x5 x6 x7 x8 x9 x10 x11 n d, v29_at, fone]
  rfl

/-- `%78` is the pixel's Bernoulli log-likelihood. -/
theorem v78_at (n : Fin 65536) (d : Fin 784) :
    val_main_v78 (F := Ideal) x0 x1 x2 x3 x4 x5 x6 x7 x8 x9 x10 x11 (ix2 n d)
      = bern PP (rowsOf x0 n) (rowsOf x1 n) d := by
  rw [val_main_v78_apply, val_main_v71_apply, val_main_v70_apply, val_main_v77_apply, val_main_v73_apply,
    val_main_v72_apply, val_main_cst_15_apply, val_main_v76_apply, val_main_v75_apply, val_main_v74_apply,
    val_main_cst_16_apply, v36_at x0 x1 x2 x3 x4 x5 x6 x7 x8 x9 x10 x11 n d]
  rfl

/-- `%79` is the likelihood summed over every pixel of every row. -/
theorem v79_at (i : S_.Idx) :
    val_main_v79 (F := Ideal) x0 x1 x2 x3 x4 x5 x6 x7 x8 x9 x10 x11 i
      = ∑ n : Fin 65536, ∑ d : Fin 784, bern PP (rowsOf x0 n) (rowsOf x1 n) d := by
  rw [val_main_v79_apply, val_main_cst_17_apply, fzero, zero_add, sum_idx2]
  exact Finset.sum_congr rfl fun n _ => Finset.sum_congr rfl fun d _ => v78_at x0 x1 x2 x3 x4 x5 x6 x7 x8 x9 x10 x11 n d

/-! ## The posterior's log-density -/

/-- One coordinate's normaliser term. -/
theorem v44_at (n : Fin 65536) (j : Fin 64) :
    val_main_v44 (F := Ideal) x0 x2 x3 x6 x7 (ix2 n j)
      = cNegHalf * (cW + Ideal.log (Cert.Elbo.sig PP (rowsOf x0 n) j)) := by
  rw [val_main_v44_apply, val_main_v43_apply, val_main_cst_3_apply, val_main_v42_apply, val_main_v41_apply,
    val_main_cst_2_apply, val_main_v40_apply, v16_at x0 x2 x3 x4 x5 x6 x7 x8 x9 x10 x11 n j]
  rfl

/-- The normaliser summed over the latent coordinates. -/
theorem v45_at (n : Fin 65536) :
    val_main_v45 (F := Ideal) x0 x2 x3 x6 x7 (ix1 n)
      = ∑ j : Fin 64, cNegHalf * (cW + Ideal.log (Cert.Elbo.sig PP (rowsOf x0 n) j)) := by
  rw [val_main_v45_apply, val_main_cst_4_apply, fzero, zero_add]
  refine Finset.sum_congr rfl fun j _ => ?_
  have e : idx_main_v45 (ix1 n) j = ix2 n j := by idx2
  rw [e, v44_at x0 x2 x3 x4 x5 x6 x7 x8 x9 x10 x11 n j]

/-- One coordinate's squared deviation of the sample from the mean. -/
theorem v38_at (n : Fin 65536) (j : Fin 64) :
    val_main_v38 (F := Ideal) x0 x1 x2 x3 x4 x5 x6 x7 (ix2 n j)
      = (lat PP (rowsOf x0 n) (rowsOf x1 n) j - mu PP (rowsOf x0 n) j)
        * (lat PP (rowsOf x0 n) (rowsOf x1 n) j - mu PP (rowsOf x0 n) j) := by
  rw [val_main_v38_apply, val_main_v37_apply, v19_at x0 x1 x2 x3 x4 x5 x6 x7 x8 x9 x10 x11 n j, v10_at x0 x2 x3 x4 x5 x6 x7 x8 x9 x10 x11 n j]
  rfl

/-- The squared deviations summed over the latent coordinates. -/
theorem v39_at (n : Fin 65536) :
    val_main_v39 (F := Ideal) x0 x1 x2 x3 x4 x5 x6 x7 (ix1 n)
      = ∑ j : Fin 64, (lat PP (rowsOf x0 n) (rowsOf x1 n) j - mu PP (rowsOf x0 n) j)
          * (lat PP (rowsOf x0 n) (rowsOf x1 n) j - mu PP (rowsOf x0 n) j) := by
  rw [val_main_v39_apply, val_main_cst_1_apply, fzero, zero_add]
  refine Finset.sum_congr rfl fun j _ => ?_
  have e : idx_main_v39 (ix1 n) j = ix2 n j := by idx2
  rw [e, v38_at x0 x1 x2 x3 x4 x5 x6 x7 x8 x9 x10 x11 n j]

/-- The variances summed over the latent coordinates. -/
theorem v48_at (n : Fin 65536) :
    val_main_v48 (F := Ideal) x0 x2 x3 x6 x7 (ix1 n) = ∑ j : Fin 64, Cert.Elbo.sig PP (rowsOf x0 n) j := by
  rw [val_main_v48_apply, val_main_cst_6_apply, fzero, zero_add]
  refine Finset.sum_congr rfl fun j _ => ?_
  have e : idx_main_v48 (ix1 n) j = ix2 n j := by idx2
  rw [e, v16_at x0 x2 x3 x4 x5 x6 x7 x8 x9 x10 x11 n j]

/-- `%50` is the row's `log q`, second arrangement. -/
theorem v50_at (n : Fin 65536) :
    val_main_v50 (F := Ideal) x0 x1 x2 x3 x4 x5 x6 x7 (ix1 n) = logqR PP (rowsOf x0 n) (rowsOf x1 n) := by
  rw [val_main_v50_apply, val_main_v49_apply, val_main_v47_apply, val_main_v46_apply, val_main_cst_5_apply,
    v45_at x0 x2 x3 x4 x5 x6 x7 x8 x9 x10 x11 n, v39_at x0 x1 x2 x3 x4 x5 x6 x7 x8 x9 x10 x11 n, v48_at x0 x2 x3 x4 x5 x6 x7 x8 x9 x10 x11 n]
  rfl

/-! ## The prior's log-density -/

/-- One coordinate's normaliser term at unit variance, the same at every index. -/
theorem v61_at (i : S1x64.Idx) :
    val_main_v61 (F := Ideal) i = cNegHalf * (cW + Ideal.log cOne) := by
  rw [val_main_v61_apply, val_main_v60_apply, val_main_cst_11_apply, val_main_v59_apply, val_main_v58_apply,
    val_main_cst_10_apply, val_main_v57_apply, val_main_v52_apply, val_main_cst_8_apply]
  rfl

/-- The prior's normaliser summed over the latent coordinates. -/
theorem v62_at (i : S1.Idx) :
    val_main_v62 (F := Ideal) i = ∑ _j : Fin 64, cNegHalf * (cW + Ideal.log cOne) := by
  rw [val_main_v62_apply, val_main_cst_12_apply, fzero, zero_add]
  exact Finset.sum_congr rfl fun j _ => v61_at _

/-- The prior's unit variances summed over the latent coordinates. -/
theorem v65_at (i : S1.Idx) :
    val_main_v65 (F := Ideal) i = ∑ _j : Fin 64, cOne := by
  rw [val_main_v65_apply, val_main_cst_14_apply, fzero, zero_add]
  refine Finset.sum_congr rfl fun j _ => ?_
  rw [val_main_v52_apply, val_main_cst_8_apply]
  rfl

/-- One coordinate's squared deviation of the sample from the prior's mean `0`. -/
theorem v55_at (n : Fin 65536) (j : Fin 64) :
    val_main_v55 (F := Ideal) x0 x1 x2 x3 x4 x5 x6 x7 (ix2 n j)
      = (lat PP (rowsOf x0 n) (rowsOf x1 n) j - 0) * (lat PP (rowsOf x0 n) (rowsOf x1 n) j - 0) := by
  rw [val_main_v55_apply, val_main_v54_apply, val_main_v53_apply, val_main_v51_apply, val_main_cst_7_apply, fzero,
    v19_at x0 x1 x2 x3 x4 x5 x6 x7 x8 x9 x10 x11 n j]
  rfl

/-- Those summed over the latent coordinates. -/
theorem v56_at (n : Fin 65536) :
    val_main_v56 (F := Ideal) x0 x1 x2 x3 x4 x5 x6 x7 (ix1 n)
      = ∑ j : Fin 64, (lat PP (rowsOf x0 n) (rowsOf x1 n) j - 0) * (lat PP (rowsOf x0 n) (rowsOf x1 n) j - 0) := by
  rw [val_main_v56_apply, val_main_cst_9_apply, fzero, zero_add]
  refine Finset.sum_congr rfl fun j _ => ?_
  have e : idx_main_v56 (ix1 n) j = ix2 n j := by idx2
  rw [e, v55_at x0 x1 x2 x3 x4 x5 x6 x7 x8 x9 x10 x11 n j]

/-- `%69` is the row's `log p(z)`, second arrangement. -/
theorem v69_at (n : Fin 65536) :
    val_main_v69 (F := Ideal) x0 x1 x2 x3 x4 x5 x6 x7 (ix1 n) = logpzR PP (rowsOf x0 n) (rowsOf x1 n) := by
  rw [val_main_v69_apply, val_main_v68_apply, v62_at, val_main_v67_apply, val_main_v66_apply, v65_at,
    val_main_v64_apply, val_main_v63_apply, val_main_cst_13_apply, v56_at x0 x1 x2 x3 x4 x5 x6 x7 x8 x9 x10 x11 n]
  rfl

/-! ## The batch -/

/-- `%81` is the row's prior-minus-posterior part. -/
theorem v81_at (n : Fin 65536) :
    val_main_v81 (F := Ideal) x0 x1 x2 x3 x4 x5 x6 x7 (ix1 n) = rowR PP (rowsOf x0 n) (rowsOf x1 n) := by
  rw [val_main_v81_apply, val_main_v80_apply, v50_at x0 x1 x2 x3 x4 x5 x6 x7 x8 x9 x10 x11 n, v69_at x0 x1 x2 x3 x4 x5 x6 x7 x8 x9 x10 x11 n]
  rfl

/-- `%82` is that part summed over the rows. -/
theorem v82_at (i : S_.Idx) :
    val_main_v82 (F := Ideal) x0 x1 x2 x3 x4 x5 x6 x7 i = ∑ n : Fin 65536, rowR PP (rowsOf x0 n) (rowsOf x1 n) := by
  rw [val_main_v82_apply, val_main_cst_18_apply, fzero, zero_add, sum_idx1]
  exact Finset.sum_congr rfl fun n _ => v81_at x0 x1 x2 x3 x4 x5 x6 x7 x8 x9 x10 x11 n

/-- The reference's result is the bound's second arrangement at the twelve argument arrays. -/
theorem ref_value
    (x0 : (⟨S65536x784, .f32⟩ : BufTy).Contents (Elt Ideal)) (x1 : (⟨S65536x64, .f32⟩ : BufTy).Contents (Elt Ideal))
    (x2 : (⟨S1024x784, .f32⟩ : BufTy).Contents (Elt Ideal)) (x3 : (⟨S1024, .f32⟩ : BufTy).Contents (Elt Ideal))
    (x4 : (⟨S64x1024, .f32⟩ : BufTy).Contents (Elt Ideal)) (x5 : (⟨S64, .f32⟩ : BufTy).Contents (Elt Ideal))
    (x6 : (⟨S64x1024, .f32⟩ : BufTy).Contents (Elt Ideal)) (x7 : (⟨S64, .f32⟩ : BufTy).Contents (Elt Ideal))
    (x8 : (⟨S1024x64, .f32⟩ : BufTy).Contents (Elt Ideal)) (x9 : (⟨S1024, .f32⟩ : BufTy).Contents (Elt Ideal))
    (x10 : (⟨S784x1024, .f32⟩ : BufTy).Contents (Elt Ideal)) (x11 : (⟨S784, .f32⟩ : BufTy).Contents (Elt Ideal)) (i : S_.Idx) :
    Cert.ReferenceIdeal.Read.val_main_v84 (F := Ideal) x0 x1 x2 x3 x4 x5 x6 x7 x8 x9 x10 x11 i
      = Cert.Elbo.elboROf x0 x1 x2 x3 x4 x5 x6 x7 x8 x9 x10 x11 := by
  rw [val_main_v84_apply, val_main_v83_apply, v82_at x0 x1 x2 x3 x4 x5 x6 x7 x8 x9 x10 x11 i, v79_at x0 x1 x2 x3 x4 x5 x6 x7 x8 x9 x10 x11 i, val_main_cst_19_apply]
  rfl

end Cert.ReferenceIdeal.RefValue

end
-- ==== Proof.ElboLaw.lean ====
import proofs.«142983_j31499290149445_2_alg».proof.Proof.Spec

/-!
# The two arrangements of the bound agree

`Cert.Elbo.elboK` and `Cert.Elbo.elboR` are the same extended real whenever the posterior's weights and biases
(`Wmu`, `bmu`, `Wls`, `bls`) are real numbers. Both divide by the batch size, so the numerators are compared;
the sum over the batch splits over the addition of a row's likelihood, which leaves one row; and a row's two
arrangements differ in `log q` and `log p(z)` only.

The extended reals are not a ring: distributivity and cancellation fail at the infinities. Each use of them
below happens in the reals. The hidden layer is a hyperbolic tangent, hence real whatever its argument; the
posterior's mean and log-variance are then finite sums of products of reals; the variance is a real
exponential, its logarithm is the log-variance and its square root squares back to it. The noise `e` and the
pixels `x` may be any extended reals.
-/

noncomputable section

namespace Cert.Elbo

open Idealize.ShloMosaic

/-! ## The constants' values

Each constant is a single-precision word; its value is read off the word's sign, exponent and mantissa. -/

/-- `1.0` denotes the real `1`. -/
theorem cOne_eq : cOne = ((1 : ℝ) : EReal) := by
  unfold cOne
  simp [Ideal.ofBits, Ideal.ieee, -EReal.coe_mul]; norm_num

/-- `1.0` denotes the extended real `1`. -/
theorem cOne_eq_one : cOne = 1 := by
  rw [cOne_eq]; rfl

/-- `0.5` denotes `1/2`. -/
theorem cHalf_eq : cHalf = (((1 : ℝ) / 2 : ℝ) : EReal) := by
  unfold cHalf
  simp [Ideal.ofBits, Ideal.ieee, -EReal.coe_mul]; norm_num

/-- `-0.5` denotes `-1/2`. -/
theorem cNegHalf_eq : cNegHalf = ((-(1 : ℝ) / 2 : ℝ) : EReal) := by
  unfold cNegHalf
  simp [Ideal.ofBits, Ideal.ieee, -EReal.coe_mul]; norm_num

/-- `64.0` denotes `64`. -/
theorem c64_eq : c64 = ((64 : ℝ) : EReal) := by
  unfold c64
  simp [Ideal.ofBits, Ideal.ieee, -EReal.coe_mul]; norm_num

/-- `w`, the word nearest `log 2π`: mantissa `0x6B3F8E` at exponent `0`, that is `15417230 / 2²³`. -/
theorem cW_eq : cW = (((15417230 : ℝ) / 8388608 : ℝ) : EReal) := by
  unfold cW
  simp [Ideal.ofBits, Ideal.ieee, -EReal.coe_mul]; norm_num

/-- The word with `w`'s mantissa and exponent `6` denotes `64 · w` exactly. -/
theorem cW64_eq : cW64 = ((64 * ((15417230 : ℝ) / 8388608) : ℝ) : EReal) := by
  unfold cW64
  simp [Ideal.ofBits, Ideal.ieee, -EReal.coe_mul]; norm_num

/-- The word with `w`'s mantissa, exponent `5` and the sign set denotes `-32 · w` exactly. -/
theorem cWm32_eq : cWm32 = ((-32 * ((15417230 : ℝ) / 8388608) : ℝ) : EReal) := by
  unfold cWm32
  simp [Ideal.ofBits, Ideal.ieee, -EReal.coe_mul]; norm_num

/-! ## Finite sums of real numbers

Addition and multiplication of extended reals are the real ones on real arguments, so a finite sum of reals is
the real sum. Distributivity and cancellation fail at the infinities; everything below that uses them is
first brought into the reals. -/

/-- A finite sum of real numbers, taken in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- An affine combination `∑ k, h k * W k + b` of real numbers is a real number. -/
theorem affine_real {ι : Type} [Fintype ι] (h W : ι → EReal) (b : EReal)
    (hh : ∀ k, ∃ r : ℝ, h k = (r : EReal)) (hW : ∀ k, ∃ r : ℝ, W k = (r : EReal))
    (hb : ∃ r : ℝ, b = (r : EReal)) : ∃ r : ℝ, (∑ k, h k * W k) + b = (r : EReal) := by
  choose hr hhr using hh
  choose wr hwr using hW
  obtain ⟨br, rfl⟩ := hb
  refine ⟨(∑ k, hr k * wr k) + br, ?_⟩
  simp only [hhr, hwr, ← EReal.coe_mul]
  rw [coe_sum, EReal.coe_add]

/-- The hyperbolic tangent of any extended real is a real number: `-1` at `⊥`, `1` at `⊤`. -/
theorem tanh_real (y : EReal) : ∃ r : ℝ, Ideal.tanh y = (r : EReal) := by
  induction y with
  | bot => exact ⟨-1, by rw [Ideal.tanh_bot, EReal.coe_neg, EReal.coe_one]⟩
  | coe a => exact ⟨Real.tanh a, Ideal.tanh_coe a⟩
  | top => exact ⟨1, by rw [Ideal.tanh_top, EReal.coe_one]⟩

/-- For a real `r` and any extended real `q`, `(r + q) - r = q`. -/
theorem coe_add_sub_cancel (r : ℝ) (q : EReal) : ((r : EReal) + q) - (r : EReal) = q := by
  induction q with
  | bot => rw [EReal.add_bot, EReal.bot_sub]
  | coe a => rw [← EReal.coe_add, ← EReal.coe_sub, add_sub_cancel_left]
  | top => rw [EReal.coe_add_top, EReal.top_sub_coe]

/-- The logarithm undoes the exponential at a real number. -/
theorem log_exp_coe (r : ℝ) : Ideal.log (Ideal.exp (r : EReal)) = (r : EReal) := by
  rw [Ideal.exp_coe, Ideal.log_coe, if_neg (not_le.mpr (Real.exp_pos r)), Real.log_exp]

/-- The square root of the exponential of a real number, squared, is that exponential. -/
theorem sqrt_mul_sqrt_exp_coe (r : ℝ) :
    Ideal.sqrt (Ideal.exp (r : EReal)) * Ideal.sqrt (Ideal.exp (r : EReal)) = Ideal.exp (r : EReal) := by
  rw [Ideal.exp_coe, Ideal.sqrt_coe, if_neg (not_lt.mpr (Real.exp_pos r).le), ← EReal.coe_mul,
    Real.mul_self_sqrt (Real.exp_pos r).le]

/-- The logarithm of `1.0` is `0`. -/
theorem log_cOne : Ideal.log cOne = 0 := by
  rw [cOne_eq, Ideal.log_coe, if_neg (by norm_num), Real.log_one, EReal.coe_zero]

/-- Summing `a * (w + f j)` over `64` coordinates, for reals `a`, `w`, `f j`: the constant part is `64 · w`. -/
theorem sum_scaled_shift {L : Type} [Fintype L] (hL : Fintype.card L = 64) (a w : ℝ) (f : L → ℝ) :
    (∑ j, (a : EReal) * ((w : EReal) + (f j : EReal)))
      = (a : EReal) * (((64 * w : ℝ) : EReal) + ∑ j, (f j : EReal)) := by
  simp only [← EReal.coe_add, ← EReal.coe_mul]
  rw [coe_sum, coe_sum, ← EReal.coe_add, ← EReal.coe_mul]
  congr 1
  rw [← Finset.mul_sum, Finset.sum_add_distrib, Finset.sum_const, Finset.card_univ, hL, nsmul_eq_mul]
  norm_num

/-- Summing a real constant over `64` coordinates multiplies it by `64`. -/
theorem sum_const_coe {L : Type} [Fintype L] (hL : Fintype.card L = 64) (c : ℝ) :
    (∑ _j : L, (c : EReal)) = ((64 * c : ℝ) : EReal) := by
  rw [coe_sum]
  congr 1
  rw [Finset.sum_const, Finset.card_univ, hL, nsmul_eq_mul]
  norm_num

/-! ## One batch row -/

section row

variable {D H L : Type} [Fintype D] [Fintype H] [Fintype L] (P : Params D H L) (x : D → EReal) (e : L → EReal)

/-- Every hidden unit of the encoder is a real number. -/
theorem hid_real (k : H) : ∃ r : ℝ, hid P x k = (r : EReal) := tanh_real _

/-- The posterior's mean is real when its weights and bias are. -/
theorem mu_real (hWmu : ∀ j k, ∃ r : ℝ, P.Wmu j k = (r : EReal)) (hbmu : ∀ j, ∃ r : ℝ, P.bmu j = (r : EReal))
    (j : L) : ∃ r : ℝ, mu P x j = (r : EReal) :=
  affine_real (hid P x) (P.Wmu j) (P.bmu j) (hid_real P x) (hWmu j) (hbmu j)

/-- The posterior's log-variance is real when its weights and bias are. -/
theorem ls_real (hWls : ∀ j k, ∃ r : ℝ, P.Wls j k = (r : EReal)) (hbls : ∀ j, ∃ r : ℝ, P.bls j = (r : EReal))
    (j : L) : ∃ r : ℝ, ls P x j = (r : EReal) :=
  affine_real (hid P x) (P.Wls j) (P.bls j) (hid_real P x) (hWls j) (hbls j)

/-- With a real mean and a real log-variance, the squared deviation `(lat - mu)²` is `sig · e²`. -/
theorem dev_sq (j : L) (hmu : ∃ r : ℝ, mu P x j = (r : EReal)) (hls : ∃ r : ℝ, ls P x j = (r : EReal)) :
    (lat P x e j - mu P x j) * (lat P x e j - mu P x j) = sig P x j * (e j * e j) := by
  obtain ⟨m, hm⟩ := hmu
  obtain ⟨l, hl⟩ := hls
  unfold lat sig
  rw [hm, hl, coe_add_sub_cancel, mul_mul_mul_comm, sqrt_mul_sqrt_exp_coe]

/-- The two arrangements of `log q` agree. -/
theorem logqK_eq_logqR (hL : Fintype.card L = 64)
    (hmu : ∀ j, ∃ r : ℝ, mu P x j = (r : EReal)) (hls : ∀ j, ∃ r : ℝ, ls P x j = (r : EReal)) :
    logqK P x e = logqR P x e := by
  unfold logqK logqR
  have h1 : (∑ j, cNegHalf * (cW + Ideal.log (sig P x j)))
      = cNegHalf * (cW64 + ∑ j, Ideal.log (sig P x j)) := by
    choose l hl using hls
    have hlog : ∀ j, Ideal.log (sig P x j) = (l j : EReal) := fun j => by
      unfold sig; rw [hl j, log_exp_coe]
    simp only [hlog]
    rw [cNegHalf_eq, cW_eq, cW64_eq]
    exact sum_scaled_shift hL _ _ l
  have h2 : (∑ j, (lat P x e j - mu P x j) * (lat P x e j - mu P x j))
      = ∑ j, sig P x j * (e j * e j) :=
    Finset.sum_congr rfl fun j _ => dev_sq P x e j (hmu j) (hls j)
  rw [h1, h2]

/-- The two arrangements of `log p(z)` agree. -/
theorem logpzK_eq_logpzR (hL : Fintype.card L = 64) : logpzK P x e = logpzR P x e := by
  unfold logpzK logpzR
  have h1 : (∑ _j : L, cNegHalf * (cW + Ideal.log cOne)) = cWm32 := by
    rw [log_cOne, add_zero, cNegHalf_eq, cW_eq, cWm32_eq, ← EReal.coe_mul, sum_const_coe hL]
    congr 1
    norm_num
  have h2 : (∑ _j : L, cOne) = c64 := by
    rw [cOne_eq, c64_eq, sum_const_coe hL]
    congr 1
    norm_num
  simp only [sub_zero]
  rw [h1, h2]

/-- A row of the first arrangement is the row of the second plus the row's likelihood. -/
theorem rowK_eq (hL : Fintype.card L = 64)
    (hWmu : ∀ j k, ∃ r : ℝ, P.Wmu j k = (r : EReal)) (hbmu : ∀ j, ∃ r : ℝ, P.bmu j = (r : EReal))
    (hWls : ∀ j k, ∃ r : ℝ, P.Wls j k = (r : EReal)) (hbls : ∀ j, ∃ r : ℝ, P.bls j = (r : EReal)) :
    rowK P x e = rowR P x e + ∑ d, bern P x e d := by
  unfold rowK rowR
  rw [logqK_eq_logqR P x e hL (mu_real P x hWmu hbmu) (ls_real P x hWls hbls),
    logpzK_eq_logpzR P x e hL, zero_sub]

end row

/-! ## The batch -/

/-- The two arrangements of the bound agree when the posterior's weights and biases are real numbers. -/
theorem elboK_eq_elboR {N D H L : Type} [Fintype N] [Fintype D] [Fintype H] [Fintype L]
    (hL : Fintype.card L = 64) (P : Params D H L)
    (hWmu : ∀ j k, ∃ r : ℝ, P.Wmu j k = (r : EReal)) (hbmu : ∀ j, ∃ r : ℝ, P.bmu j = (r : EReal))
    (hWls : ∀ j k, ∃ r : ℝ, P.Wls j k = (r : EReal)) (hbls : ∀ j, ∃ r : ℝ, P.bls j = (r : EReal))
    (X : N → D → EReal) (E : N → L → EReal) : elboK P X E = elboR P X E := by
  unfold elboK elboR
  rw [← Finset.sum_add_distrib]
  congr 1
  exact Finset.sum_congr rfl fun n _ => rowK_eq P (X n) (E n) hL hWmu hbmu hWls hbls

end Cert.Elbo

end
-- ==== Proof.FiniteInputs.lean ====
import proofs.«142983_j31499290149445_2_alg».proof.Pre_finite_inputs
import Idealize.ShloMosaic.Lib.ReduceAll
import Idealize.ShloMosaic.Lib.ValueIdx
import Idealize.ShloMosaic.PureOps.Ideal

/-!
# Finite inputs are real numbers

The precondition says of each of the twelve argument arrays that every entry `a` satisfies `|a| < +∞`,
and takes the conjunction of the twelve statements. On the extended reals `|a| = max a (-a)`, which is `+∞`
at both `-∞` and `+∞`; so an entry with `|a| < +∞` is neither, that is, it is a real number.
Here this is read off for the four arrays of the posterior's mean and log-variance layers.
-/

noncomputable section

namespace Cert.Elbo.Finite

open Idealize.ShloMosaic Idealize.ShloMosaic.ValueIdx

/-- The single-precision word `0x7F800000` (exponent all ones, significand zero, sign clear) denotes `+∞`. -/
theorem ofBits_inf : Ideal.ofBits .f32 0x7F800000#32 = (⊤ : EReal) := by
  simp [Ideal.ofBits, Ideal.ieee]

/-- An extended real whose absolute value `max a (-a)` is strictly below `+∞` is a real number:
    at `a = -∞` and at `a = +∞` the maximum is `+∞`, which is not below itself. -/
theorem real_of_abs_lt_top (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- The shape of a scalar has exactly one index. -/
instance : Subsingleton Cert.Pre_finite_inputs.S_.Idx := ⟨fun a b => funext fun d => d.elim0⟩

/-- If the conjunction over all entries of `|x i| < +∞` holds, then every entry of `x` is a real number. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) (i : s.Idx) :
    ∃ r : ℝ, x i = (r : EReal) := by
  have hi := Host.reduce_andi_all _ _ hr hu ix0 e i
  exact real_of_abs_lt_top (x i) hi

open Cert.Pre_finite_inputs in
/-- Under the precondition, every entry of the four arrays of the mean and log-variance layers is a real number. -/
theorem real_of_finite [Cert.Pre_finite_inputs.Facts]
    (x0 : FVec Ideal Cert.Pre_finite_inputs.S65536x784 .f32) (x1 : FVec Ideal Cert.Pre_finite_inputs.S65536x64 .f32)
    (x2 : FVec Ideal Cert.Pre_finite_inputs.S1024x784 .f32) (x3 : FVec Ideal Cert.Pre_finite_inputs.S1024 .f32)
    (x4 : FVec Ideal Cert.Pre_finite_inputs.S64x1024 .f32) (x5 : FVec Ideal Cert.Pre_finite_inputs.S64 .f32)
    (x6 : FVec Ideal Cert.Pre_finite_inputs.S64x1024 .f32) (x7 : FVec Ideal Cert.Pre_finite_inputs.S64 .f32)
    (x8 : FVec Ideal Cert.Pre_finite_inputs.S1024x64 .f32) (x9 : FVec Ideal Cert.Pre_finite_inputs.S1024 .f32)
    (x10 : FVec Ideal Cert.Pre_finite_inputs.S784x1024 .f32) (x11 : FVec Ideal Cert.Pre_finite_inputs.S784 .f32)
    (h : Cert.Pre_finite_inputs.fn (F := Ideal) x0 x1 x2 x3 x4 x5 x6 x7 x8 x9 x10 x11 = fun _ => 1#1) :
    (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) := by
  -- the value of the conjunction at the one index of a scalar
  have e := congrFun h ix0
  dsimp only [Cert.Pre_finite_inputs.fn] at e
  dsimp only [Cert.Pre_finite_inputs.fn_part1] at e
  dsimp only [Cert.Pre_finite_inputs.fn_part2] at e
  dsimp only [Cert.Pre_finite_inputs.fn_part3] at e
  dsimp only [Idealize.ShloMosaic.andi] at e
  -- the conjunction is nested to the left, the last array outermost: peel the arrays after the eighth
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  -- then the eighth, seventh, sixth and fifth arrays
  obtain ⟨e, h7⟩ := IntOp.andi_eq_one.1 e
  obtain ⟨e, h6⟩ := IntOp.andi_eq_one.1 e
  obtain ⟨e, h5⟩ := IntOp.andi_eq_one.1 e
  obtain ⟨-, h4⟩ := IntOp.andi_eq_one.1 e
  exact ⟨real_of_all _ _ _ x4 h4, real_of_all _ _ _ x5 h5, real_of_all _ _ _ x6 h6, real_of_all _ _ _ x7 h7⟩

end Cert.Elbo.Finite

end
-- ==== Proof.lean ====
/-
  A variational auto-encoder's evidence lower bound over a batch of 65536 rows (784 pixels, 1024 hidden units, 64
  latent coordinates), computed two ways and claimed equal on the extended reals under finite inputs.

  The kernel walks the batch in 64 tiles of 1024 rows. For each row it runs the encoder (a matrix product, a bias,
  tanh; two more products for the posterior's mean and log-variance), draws the sample
  `mean + sqrt(variance) · noise`, runs the decoder (two products, tanh, the logistic function) and adds
  `-log q + log p(z) + ∑ pixels (x · log p + (1 - x) · log (1 - p))` to a running total carried from tile to tile; the
  result is the total over the batch size. Its `log q` and `log p(z)` fold the Gaussian normaliser into one constant
  per row (`64 · w` and `-32 · w`, `w` the single-precision word nearest `log 2π`: the same mantissa, so the
  products are exact) and write the squared deviation as `variance · noise²`.

  The reference computes whole arrays: the same layers as five matrix products, `log q` and `log p(z)` as sums over
  the latent coordinates of `-½ (w + log variance)` with the deviation written `(sample - mean)²` (and the prior's
  zero mean and unit variance spelt out as arrays), the likelihood summed over every pixel of every row at once.

  Both are one function of the twelve argument arrays (Proof/Spec.lean states it, in both arrangements):
    * the reference's result, read one operation at a time, is the second arrangement (Proof/RefRead.lean);
    * the kernel's result is the first: each grid point adds its tile's rows to the running total
      (Proof/KernelTile.lean, Proof/KernelTileValue.lean), the tiles are consecutive row blocks of the arrays and every
      point sees the same weights (Proof/KernelBlocks.lean), the total after the last point is the sum over the batch
      and the one-by-one output block, written back once, is reshaped to the scalar result (Proof/KernelRun.lean,
      Proof/KernelValue.lean);
    * the two arrangements agree (Proof/ElboLaw.lean): sums re-associate freely on the extended reals, but
      distributing `-½` over `w + log variance` and cancelling the mean from `(mean + q) - mean` need the mean and
      the log-variance to be real numbers — they are, because tanh is real everywhere and the four arrays of the
      mean's and log-variance's weights and biases are finite (Proof/FiniteInputs.lean, from the precondition).
  The word-level kernel's idealization rewrote nothing, so `preserves` is `True`; the three frames are the programs'
  runs with the result dropped.
-/
import proofs.«142983_j31499290149445_2_alg».proof.Defs
import proofs.«142983_j31499290149445_2_alg».proof.Proof.Gen.Kernel
import proofs.«142983_j31499290149445_2_alg».proof.Proof.Gen.Kernel.Frame
import proofs.«142983_j31499290149445_2_alg».proof.Proof.Gen.KernelIdeal
import proofs.«142983_j31499290149445_2_alg».proof.Proof.Gen.KernelIdeal.Frame
import proofs.«142983_j31499290149445_2_alg».proof.Proof.Gen.ReferenceIdeal
import proofs.«142983_j31499290149445_2_alg».proof.Proof.Gen.ReferenceIdeal.Run
import proofs.«142983_j31499290149445_2_alg».proof.Proof.Gen.ReferenceIdeal.Read
import proofs.«142983_j31499290149445_2_alg».proof.Proof.Gen.Pre_finite_inputs
import proofs.«142983_j31499290149445_2_alg».proof.Proof.KernelValue
import proofs.«142983_j31499290149445_2_alg».proof.Proof.RefRead
import proofs.«142983_j31499290149445_2_alg».proof.Proof.ElboLaw
import proofs.«142983_j31499290149445_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the word-level kernel and its reading on the extended reals. -/
theorem preserves : Cert.preserves_Kernel_KernelIdeal := trivial

/-- Both programs end at the bound of the argument arrays: the kernel at its first arrangement, the reference at its
    second, and the two agree because the posterior's mean and log-variance are real numbers. -/
theorem algebraic : Cert.algebraic_KernelIdeal_ReferenceIdeal := by
  intro m ρ m' ρ' hpre hagree
  refine ⟨fun c _ => Cert.Elbo.elboKOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun _ h c => ⟨(h c).1.trans ?_, (h c).2⟩) (Cert.KernelIdeal.KValue.run m ρ)
    funext _
    exact Cert.KernelIdeal.KValue.result_apply m c
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v84_eq]
    funext j
    rw [Cert.ReferenceIdeal.RefValue.ref_value, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    obtain ⟨h4, h5, h6, h7⟩ := Cert.Elbo.Finite.real_of_finite _ _ _ _ _ _ _ _ _ _ _ _ (hpre c)
    exact (Cert.Elbo.elboK_eq_elboR (Fintype.card_fin 64) _ (fun j k => h4 (ix2 j k)) (fun j => h5 (ix1 j))
      (fun j k => h6 (ix2 j k)) (fun j => h7 (ix1 j)) _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
